-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  main_v23

def fn {F : FTy → Type} [FloatOps F] (main_arg0 : FVec F S100000x64 .f32) (main_arg1 : IVec S1600000 32) (main_arg2 : IVec S1600000 32) (main_arg3 : FVec F S64x64 .f32) (main_arg4 : FVec F S64x64 .f32) (main_arg5 : FVec F S64x64 .f32) (main_arg6 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S8000x64 : Shape := ⟨2, ![8000, 64]⟩
abbrev S5000x64 : Shape := ⟨2, ![5000, 64]⟩

abbrev nBuf : Space → Nat
  | .hbm => 137
  | .vmem => 30
  | .smem => 0
  | _ => 0

abbrev hbmTy0_0 (i : Nat) : BufTy := match i % 128 with
  | 0 => ⟨S100000x64, .f32⟩
  | 1 => ⟨S1600000, .i32⟩
  | 2 => ⟨S1600000, .i32⟩
  | 3 => ⟨S64x64, .f32⟩
  | 4 => ⟨S64x64, .f32⟩
  | 5 => ⟨S64x64, .f32⟩
  | 6 => ⟨S64x64, .f32⟩
  | 7 => ⟨S_, .f32⟩
  | 8 => ⟨S1600000, .f32⟩
  | 9 => ⟨S_, .f32⟩
  | 10 => ⟨S100000, .f32⟩
  | 11 => ⟨S1600000x1, .i32⟩
  | 12 => ⟨S100000, .f32⟩
  | 13 => ⟨S_, .f32⟩
  | 14 => ⟨S_, .f32⟩
  | 15 => ⟨S100000, .f32⟩
  | 16 => ⟨S100000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S_, .f32⟩
  | 23 => ⟨S100000, .f32⟩
  | 24 => ⟨S100000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S1600000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x64, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x64, .f32⟩
  | 63 => ⟨S1600000x1, .f32⟩
  | 64 => ⟨S1600000x64, .f32⟩
  | 65 => ⟨S1600000x64, .f32⟩
  | 66 => ⟨S1600000x64, .f32⟩
  | 67 => ⟨S_, .f32⟩
  | 68 => ⟨S100000x64, .f32⟩
  | 69 => ⟨S1600000x1, .i32⟩
  | 70 => ⟨S100000x64, .f32⟩
  | 71 => ⟨S100000x64, .f32⟩
  | 72 => ⟨S_, .f32⟩
  | 73 => ⟨S1600000, .f32⟩
  | 74 => ⟨S_, .f32⟩
  | 75 => ⟨S100000, .f32⟩
  | 76 => ⟨S1600000x1, .i32⟩
  | 77 => ⟨S100000, .f32⟩
  | 78 => ⟨S_, .f32⟩
  | 79 => ⟨S_, .f32⟩
  | 80 => ⟨S100000, .f32⟩
  | 81 => ⟨S100000, .f32⟩
  | 82 => ⟨S_, .f32⟩
  | 83 => ⟨S100000, .f32⟩
  | 84 => ⟨S1600000x1, .i32⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000, .f32⟩
  | 108 => ⟨S1600000, .f32⟩
  | 109 => ⟨S1600000, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x64, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x64, .f32⟩
  | _ => ⟨S100000x64, .f32⟩

abbrev hbmTy0_1 (i : Nat) : BufTy := match i % 128 with
  | 0 => ⟨S1600000x1, .f32⟩
  | 1 => ⟨S1600000x64, .f32⟩
  | 2 => ⟨S1600000x64, .f32⟩
  | 3 => ⟨S1600000x64, .f32⟩
  | 4 => ⟨S_, .f32⟩
  | 5 => ⟨S100000x64, .f32⟩
  | 6 => ⟨S1600000x1, .i32⟩
  | 7 => ⟨S100000x64, .f32⟩
  | 8 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S64x64, .f32⟩
  | .local _ .vmem, ⟨5, _⟩ => ⟨S64x64, .f32⟩
  | .local _ .vmem, ⟨6, _⟩ => ⟨S8000x64, .f32⟩
  | .local _ .vmem, ⟨7, _⟩ => ⟨S8000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S8000x64, .f32⟩
  | .local _ .vmem, ⟨16, _⟩ => ⟨S8000x64, .f32⟩
  | .local _ .vmem, ⟨17, _⟩ => ⟨S8000x64, .f32⟩
  | .local _ .vmem, ⟨18, _⟩ => ⟨S8000x64, .f32⟩
  | .local _ .vmem, ⟨19, _⟩ => ⟨S64x64, .f32⟩
  | .local _ .vmem, ⟨20, _⟩ => ⟨S64x64, .f32⟩
  | .local _ .vmem, ⟨21, _⟩ => ⟨S8000x64, .f32⟩
  | .local _ .vmem, ⟨22, _⟩ => ⟨S8000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S64x64, .f32⟩
  | .local _ .vmem, ⟨28, _⟩ => ⟨S5000x64, .f32⟩
  | .local _ .vmem, ⟨29, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_4 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_5 : Ref sig .tc := ⟨.hbm, 34, rfl⟩
abbrev main_v16 : Ref sig .tc := ⟨.hbm, 35, rfl⟩
abbrev main_v17 : Ref sig .tc := ⟨.hbm, 36, rfl⟩
abbrev main_c_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_7 : Ref sig .tc := ⟨.hbm, 45, rfl⟩
abbrev main_v25 : Ref sig .tc := ⟨.hbm, 46, rfl⟩
abbrev main_v26 : Ref sig .tc := ⟨.hbm, 47, rfl⟩
abbrev main_c_8 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_9 : Ref sig .tc := ⟨.hbm, 54, rfl⟩
abbrev main_v32 : Ref sig .tc := ⟨.hbm, 55, rfl⟩
abbrev main_v33 : Ref sig .tc := ⟨.hbm, 56, rfl⟩
abbrev main_c_10 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_11 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_12 : Ref sig .tc := ⟨.hbm, 72, rfl⟩
abbrev main_v47 : Ref sig .tc := ⟨.hbm, 73, rfl⟩
abbrev main_cst_13 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_14 : Ref sig .tc := ⟨.hbm, 78, rfl⟩
abbrev main_call2_v0 : Ref sig .tc := ⟨.hbm, 79, rfl⟩
abbrev main_call2_v1 : Ref sig .tc := ⟨.hbm, 80, rfl⟩
abbrev main_v51 : Ref sig .tc := ⟨.hbm, 81, rfl⟩
abbrev main_cst_15 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_16 : Ref sig .tc := ⟨.hbm, 86, rfl⟩
abbrev main_call3_v0 : Ref sig .tc := ⟨.hbm, 87, rfl⟩
abbrev main_call3_v1 : Ref sig .tc := ⟨.hbm, 88, rfl⟩
abbrev main_v55 : Ref sig .tc := ⟨.hbm, 89, rfl⟩
abbrev main_c_17 : Ref sig .tc := ⟨.hbm, 90, rfl⟩
abbrev main_v56 : Ref sig .tc := ⟨.hbm, 91, rfl⟩
abbrev main_v57 : Ref sig .tc := ⟨.hbm, 92, rfl⟩
abbrev main_c_18 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_c_19 : Ref sig .tc := ⟨.hbm, 99, rfl⟩
abbrev main_v63 : Ref sig .tc := ⟨.hbm, 100, rfl⟩
abbrev main_v64 : Ref sig .tc := ⟨.hbm, 101, rfl⟩
abbrev main_c_20 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_c_21 : Ref sig .tc := ⟨.hbm, 110, rfl⟩
abbrev main_v72 : Ref sig .tc := ⟨.hbm, 111, rfl⟩
abbrev main_v73 : Ref sig .tc := ⟨.hbm, 112, rfl⟩
abbrev main_c_22 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_c_23 : Ref sig .tc := ⟨.hbm, 119, rfl⟩
abbrev main_v79 : Ref sig .tc := ⟨.hbm, 120, rfl⟩
abbrev main_v80 : Ref sig .tc := ⟨.hbm, 121, rfl⟩
abbrev main_c_24 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_25 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  dot_S8000x64_S64x64_S8000x64_1_0_0_1_n_n_wf : DotDims.WF S8000x64 S64x64 S8000x64 [1] [0] [0] [1] [] []
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1600000x64.size a
  hwx0_0 : ∀ i : grid0.Coords, EltTy.bits .f32 = 32 ∨ (Rect.block (s := S1600000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1600000x64.size a
  hwx0_1 : ∀ i : grid0.Coords, EltTy.bits .f32 = 32 ∨ (Rect.block (s := S1600000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x64.size a ≤ S1600000x64.size a
  hwx0_4 : ∀ i : grid0.Coords, EltTy.bits .f32 = 32 ∨ (Rect.block (s := S1600000x64) S8000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S1600000x64.size a
  hwx2_0 : ∀ i : grid2.Coords, EltTy.bits .f32 = 32 ∨ (Rect.block (s := S1600000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S1600000x64.size a
  hwx2_1 : ∀ i : grid2.Coords, EltTy.bits .f32 = 32 ∨ (Rect.block (s := S1600000x64) S8000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8000x64.size a ≤ S1600000x64.size a
  hwx2_4 : ∀ i : grid2.Coords, EltTy.bits .f32 = 32 ∨ (Rect.block (s := S1600000x64) S8000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v41) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v42) S8000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v88) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v85) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v89) S8000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v46) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v92) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v93) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩

abbrev nBuf : Space → Nat
  | .hbm => 148
  | .vmem => 0
  | .smem => 0
  | _ => 0

abbrev hbmTy0_0 (i : Nat) : BufTy := match i % 128 with
  | 0 => ⟨S100000x64, .f32⟩
  | 1 => ⟨S1600000, .i32⟩
  | 2 => ⟨S1600000, .i32⟩
  | 3 => ⟨S64x64, .f32⟩
  | 4 => ⟨S64x64, .f32⟩
  | 5 => ⟨S64x64, .f32⟩
  | 6 => ⟨S64x64, .f32⟩
  | 7 => ⟨S_, .f32⟩
  | 8 => ⟨S1600000, .f32⟩
  | 9 => ⟨S_, .f32⟩
  | 10 => ⟨S100000, .f32⟩
  | 11 => ⟨S1600000x1, .i32⟩
  | 12 => ⟨S100000, .f32⟩
  | 13 => ⟨S_, .f32⟩
  | 14 => ⟨S_, .f32⟩
  | 15 => ⟨S100000, .f32⟩
  | 16 => ⟨S100000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S_, .f32⟩
  | 23 => ⟨S100000, .f32⟩
  | 24 => ⟨S100000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S1600000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x64, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x64, .f32⟩
  | 63 => ⟨S1600000x64, .f32⟩
  | 64 => ⟨S1600000x64, .f32⟩
  | 65 => ⟨S1600000x64, .f32⟩
  | 66 => ⟨S1600000x64, .f32⟩
  | 67 => ⟨S1600000x1, .f32⟩
  | 68 => ⟨S1600000x64, .f32⟩
  | 69 => ⟨S1600000x64, .f32⟩
  | 70 => ⟨S_, .f32⟩
  | 71 => ⟨S100000x64, .f32⟩
  | 72 => ⟨S1600000x1, .i32⟩
  | 73 => ⟨S100000x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S_, .f32⟩
  | 80 => ⟨S1600000, .f32⟩
  | 81 => ⟨S_, .f32⟩
  | 82 => ⟨S100000, .f32⟩
  | 83 => ⟨S1600000x1, .i32⟩
  | 84 => ⟨S100000, .f32⟩
  | 85 => ⟨S_, .f32⟩
  | 86 => ⟨S_, .f32⟩
  | 87 => ⟨S100000, .f32⟩
  | 88 => ⟨S100000, .f32⟩
  | 89 => ⟨S_, .f32⟩
  | 90 => ⟨S100000, .f32⟩
  | 91 => ⟨S1600000x1, .i32⟩
  | 92 => ⟨S100000, .f32⟩
  | 93 => ⟨S_, .f32⟩
  | 94 => ⟨S_, .f32⟩
  | 95 => ⟨S100000, .f32⟩
  | 96 => ⟨S100000, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000, .f32⟩
  | 115 => ⟨S1600000, .f32⟩
  | 116 => ⟨S1600000, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x64, .f32⟩
  | 126 => ⟨S_, .i32⟩
  | 127 => ⟨S1600000, .i32⟩
  | _ => ⟨S100000x64, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000x64, .f32⟩
  | 7 => ⟨S1600000x64, .f32⟩
  | 8 => ⟨S1600000x64, .f32⟩
  | 9 => ⟨S1600000x64, .f32⟩
  | 10 => ⟨S1600000x64, .f32⟩
  | 11 => ⟨S1600000x1, .f32⟩
  | 12 => ⟨S1600000x64, .f32⟩
  | 13 => ⟨S1600000x64, .f32⟩
  | 14 => ⟨S_, .f32⟩
  | 15 => ⟨S100000x64, .f32⟩
  | 16 => ⟨S1600000x1, .i32⟩
  | 17 => ⟨S100000x64, .f32⟩
  | 18 => ⟨S100000x64, .f32⟩
  | 19 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_4 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_5 : Ref sig .tc := ⟨.hbm, 34, rfl⟩
abbrev main_v16 : Ref sig .tc := ⟨.hbm, 35, rfl⟩
abbrev main_v17 : Ref sig .tc := ⟨.hbm, 36, rfl⟩
abbrev main_c_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_7 : Ref sig .tc := ⟨.hbm, 45, rfl⟩
abbrev main_v25 : Ref sig .tc := ⟨.hbm, 46, rfl⟩
abbrev main_v26 : Ref sig .tc := ⟨.hbm, 47, rfl⟩
abbrev main_c_8 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_9 : Ref sig .tc := ⟨.hbm, 54, rfl⟩
abbrev main_v32 : Ref sig .tc := ⟨.hbm, 55, rfl⟩
abbrev main_v33 : Ref sig .tc := ⟨.hbm, 56, rfl⟩
abbrev main_c_10 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_11 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call2_cst : Ref sig .tc := ⟨.hbm, 76, rfl⟩
abbrev main_call2_v0 : Ref sig .tc := ⟨.hbm, 77, rfl⟩
abbrev main_v51 : Ref sig .tc := ⟨.hbm, 78, rfl⟩
abbrev main_cst_12 : Ref sig .tc := ⟨.hbm, 79, rfl⟩
abbrev main_v52 : Ref sig .tc := ⟨.hbm, 80, rfl⟩
abbrev main_cst_13 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_14 : Ref sig .tc := ⟨.hbm, 85, rfl⟩
abbrev main_call3_v0 : Ref sig .tc := ⟨.hbm, 86, rfl⟩
abbrev main_call3_v1 : Ref sig .tc := ⟨.hbm, 87, rfl⟩
abbrev main_v56 : Ref sig .tc := ⟨.hbm, 88, rfl⟩
abbrev main_cst_15 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_16 : Ref sig .tc := ⟨.hbm, 93, rfl⟩
abbrev main_call4_v0 : Ref sig .tc := ⟨.hbm, 94, rfl⟩
abbrev main_call4_v1 : Ref sig .tc := ⟨.hbm, 95, rfl⟩
abbrev main_v60 : Ref sig .tc := ⟨.hbm, 96, rfl⟩
abbrev main_c_17 : Ref sig .tc := ⟨.hbm, 97, rfl⟩
abbrev main_v61 : Ref sig .tc := ⟨.hbm, 98, rfl⟩
abbrev main_v62 : Ref sig .tc := ⟨.hbm, 99, rfl⟩
abbrev main_c_18 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_c_19 : Ref sig .tc := ⟨.hbm, 106, rfl⟩
abbrev main_v68 : Ref sig .tc := ⟨.hbm, 107, rfl⟩
abbrev main_v69 : Ref sig .tc := ⟨.hbm, 108, rfl⟩
abbrev main_c_20 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_c_21 : Ref sig .tc := ⟨.hbm, 117, rfl⟩
abbrev main_v77 : Ref sig .tc := ⟨.hbm, 118, rfl⟩
abbrev main_v78 : Ref sig .tc := ⟨.hbm, 119, rfl⟩
abbrev main_c_22 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_c_23 : Ref sig .tc := ⟨.hbm, 126, rfl⟩
abbrev main_v84 : Ref sig .tc := ⟨.hbm, 127, rfl⟩
abbrev main_v85 : Ref sig .tc := ⟨.hbm, 128, rfl⟩
abbrev main_c_24 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst_25 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's run with its result named.

  @main is sixteen segments: stretches of host operations and four pipelined regions.  Every weakly fair execution
  from a memory with zero counters terminates without a fault, and in the final state every unscoped buffer of a
  core holds the last segment boundary's contents.  Read at the seven argument arrays this is the frame; read at the
  buffer of the value @main returns it names the result: the contents of that buffer after the last region's
  write-backs.  The launch over the segments is the library's several-region launch theorem, instantiated as for the frame.
-/
import proofs.«105518_j14302241096099_1_alg».proof.Proof.Gen.KernelIdeal.Frame

set_option maxRecDepth 16384

noncomputable section

namespace Cert.KernelIdeal.ResultRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the returned buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v93) = W16 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v93 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c)⟩)

end Cert.KernelIdeal.ResultRun

end
-- ==== Proof.KernelStages.lean ====
/-
  The idealized kernel's host operations, read back.

  Between its four pipelined regions @main runs stretches of host operations.  Here each buffer a region reads or the
  next stretch needs is read at the segment boundary where it is needed, as a function of the launch memory:
  the seven argument arrays are never written, so they hold their launch contents at every boundary; the rows
  gathered at an edge's two ends, the source rows scaled by the edge's normalisation, and the aggregated messages
  are the same host operations the reference applies, so they are stated with the reference's own stage functions
  (gathers and scatter-adds stay unopened).  Every statement holds for any float instance.
-/
import proofs.«105518_j14302241096099_1_alg».proof.Proof.Gen.KernelIdeal.Frame
import proofs.«105518_j14302241096099_1_alg».proof.Proof.Gen.ReferenceIdeal.Read

set_option maxRecDepth 16384

noncomputable section

namespace Cert.KernelIdeal.Stages

open Cert.KernelIdeal Cert.KernelIdeal.Gen
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

theorem arg0_at5 (c : Dev nD) : W5 m ρ c (Proc.devRef .tc main_arg0) = m ((c : Thread nD τ).loc main_arg0) := by
  show StableHlo.after hostOps0_4 (StableHlo.after hostOps0_3 (StableHlo.after hostOps0_2 (StableHlo.after hostOps0_1 (StableHlo.after hostOps0 (W0 m ρ c))))) _ = _
  after_results_simp <;> rfl

theorem arg1_at5 (c : Dev nD) : W5 m ρ c (Proc.devRef .tc main_arg1) = m ((c : Thread nD τ).loc main_arg1) := by
  show StableHlo.after hostOps0_4 (StableHlo.after hostOps0_3 (StableHlo.after hostOps0_2 (StableHlo.after hostOps0_1 (StableHlo.after hostOps0 (W0 m ρ c))))) _ = _
  after_results_simp <;> rfl

theorem arg2_at5 (c : Dev nD) : W5 m ρ c (Proc.devRef .tc main_arg2) = m ((c : Thread nD τ).loc main_arg2) := by
  show StableHlo.after hostOps0_4 (StableHlo.after hostOps0_3 (StableHlo.after hostOps0_2 (StableHlo.after hostOps0_1 (StableHlo.after hostOps0 (W0 m ρ c))))) _ = _
  after_results_simp <;> rfl

theorem arg3_at5 (c : Dev nD) : W5 m ρ c (Proc.devRef .tc main_arg3) = m ((c : Thread nD τ).loc main_arg3) := by
  show StableHlo.after hostOps0_4 (StableHlo.after hostOps0_3 (StableHlo.after hostOps0_2 (StableHlo.after hostOps0_1 (StableHlo.after hostOps0 (W0 m ρ c))))) _ = _
  after_results_simp <;> rfl

theorem arg4_at5 (c : Dev nD) : W5 m ρ c (Proc.devRef .tc main_arg4) = m ((c : Thread nD τ).loc main_arg4) := by
  show StableHlo.after hostOps0_4 (StableHlo.after hostOps0_3 (StableHlo.after hostOps0_2 (StableHlo.after hostOps0_1 (StableHlo.after hostOps0 (W0 m ρ c))))) _ = _
  after_results_simp <;> rfl

theorem arg5_at5 (c : Dev nD) : W5 m ρ c (Proc.devRef .tc main_arg5) = m ((c : Thread nD τ).loc main_arg5) := by
  show StableHlo.after hostOps0_4 (StableHlo.after hostOps0_3 (StableHlo.after hostOps0_2 (StableHlo.after hostOps0_1 (StableHlo.after hostOps0 (W0 m ρ c))))) _ = _
  after_results_simp <;> rfl

theorem arg6_at5 (c : Dev nD) : W5 m ρ c (Proc.devRef .tc main_arg6) = m ((c : Thread nD τ).loc main_arg6) := by
  show StableHlo.after hostOps0_4 (StableHlo.after hostOps0_3 (StableHlo.after hostOps0_2 (StableHlo.after hostOps0_1 (StableHlo.after hostOps0 (W0 m ρ c))))) _ = _
  after_results_simp <;> rfl

theorem arg0_at6 (c : Dev nD) : W6 m ρ c (Proc.devRef .tc main_arg0) = m ((c : Thread nD τ).loc main_arg0) :=
  (W6_of_ne m ρ c main_arg0 (by decide)).trans (arg0_at5 m ρ c)

theorem arg1_at6 (c : Dev nD) : W6 m ρ c (Proc.devRef .tc main_arg1) = m ((c : Thread nD τ).loc main_arg1) :=
  (W6_of_ne m ρ c main_arg1 (by decide)).trans (arg1_at5 m ρ c)

theorem arg2_at6 (c : Dev nD) : W6 m ρ c (Proc.devRef .tc main_arg2) = m ((c : Thread nD τ).loc main_arg2) :=
  (W6_of_ne m ρ c main_arg2 (by decide)).trans (arg2_at5 m ρ c)

theorem arg3_at6 (c : Dev nD) : W6 m ρ c (Proc.devRef .tc main_arg3) = m ((c : Thread nD τ).loc main_arg3) :=
  ((W6_arr m ρ c 2).trans (((dat0 (V5 m ρ) c).arrAt_in 2 rfl _).trans (A_eq0 (V5 m ρ) c 2))).trans (arg3_at5 m ρ c)

theorem arg4_at6 (c : Dev nD) : W6 m ρ c (Proc.devRef .tc main_arg4) = m ((c : Thread nD τ).loc main_arg4) :=
  ((W6_arr m ρ c 3).trans (((dat0 (V5 m ρ) c).arrAt_in 3 rfl _).trans (A_eq0 (V5 m ρ) c 3))).trans (arg4_at5 m ρ c)

theorem arg5_at6 (c : Dev nD) : W6 m ρ c (Proc.devRef .tc main_arg5) = m ((c : Thread nD τ).loc main_arg5) :=
  (W6_of_ne m ρ c main_arg5 (by decide)).trans (arg5_at5 m ρ c)

theorem arg6_at6 (c : Dev nD) : W6 m ρ c (Proc.devRef .tc main_arg6) = m ((c : Thread nD τ).loc main_arg6) :=
  (W6_of_ne m ρ c main_arg6 (by decide)).trans (arg6_at5 m ρ c)

theorem arg0_at7 (c : Dev nD) : W7 m ρ c (Proc.devRef .tc main_arg0) = m ((c : Thread nD τ).loc main_arg0) := by
  show StableHlo.after hostOps1 (W6 m ρ c) _ = _
  after_results_simp
  exact arg0_at6 m ρ c

theorem arg1_at7 (c : Dev nD) : W7 m ρ c (Proc.devRef .tc main_arg1) = m ((c : Thread nD τ).loc main_arg1) := by
  show StableHlo.after hostOps1 (W6 m ρ c) _ = _
  after_results_simp
  exact arg1_at6 m ρ c

theorem arg2_at7 (c : Dev nD) : W7 m ρ c (Proc.devRef .tc main_arg2) = m ((c : Thread nD τ).loc main_arg2) := by
  show StableHlo.after hostOps1 (W6 m ρ c) _ = _
  after_results_simp
  exact arg2_at6 m ρ c

theorem arg3_at7 (c : Dev nD) : W7 m ρ c (Proc.devRef .tc main_arg3) = m ((c : Thread nD τ).loc main_arg3) := by
  show StableHlo.after hostOps1 (W6 m ρ c) _ = _
  after_results_simp
  exact arg3_at6 m ρ c

theorem arg4_at7 (c : Dev nD) : W7 m ρ c (Proc.devRef .tc main_arg4) = m ((c : Thread nD τ).loc main_arg4) := by
  show StableHlo.after hostOps1 (W6 m ρ c) _ = _
  after_results_simp
  exact arg4_at6 m ρ c

theorem arg5_at7 (c : Dev nD) : W7 m ρ c (Proc.devRef .tc main_arg5) = m ((c : Thread nD τ).loc main_arg5) := by
  show StableHlo.after hostOps1 (W6 m ρ c) _ = _
  after_results_simp
  exact arg5_at6 m ρ c

theorem arg6_at7 (c : Dev nD) : W7 m ρ c (Proc.devRef .tc main_arg6) = m ((c : Thread nD τ).loc main_arg6) := by
  show StableHlo.after hostOps1 (W6 m ρ c) _ = _
  after_results_simp
  exact arg6_at6 m ρ c

theorem arg0_at8 (c : Dev nD) : W8 m ρ c (Proc.devRef .tc main_arg0) = m ((c : Thread nD τ).loc main_arg0) :=
  ((W8_arr m ρ c 0).trans (((dat1 (V7 m ρ) c).arrAt_in 0 rfl _).trans (A_eq1 (V7 m ρ) c 0))).trans (arg0_at7 m ρ c)

theorem arg1_at8 (c : Dev nD) : W8 m ρ c (Proc.devRef .tc main_arg1) = m ((c : Thread nD τ).loc main_arg1) :=
  (W8_of_ne m ρ c main_arg1 (by decide)).trans (arg1_at7 m ρ c)

theorem arg2_at8 (c : Dev nD) : W8 m ρ c (Proc.devRef .tc main_arg2) = m ((c : Thread nD τ).loc main_arg2) :=
  (W8_of_ne m ρ c main_arg2 (by decide)).trans (arg2_at7 m ρ c)

theorem arg3_at8 (c : Dev nD) : W8 m ρ c (Proc.devRef .tc main_arg3) = m ((c : Thread nD τ).loc main_arg3) :=
  ((W8_arr m ρ c 2).trans (((dat1 (V7 m ρ) c).arrAt_in 2 rfl _).trans (A_eq1 (V7 m ρ) c 2))).trans (arg3_at7 m ρ c)

theorem arg4_at8 (c : Dev nD) : W8 m ρ c (Proc.devRef .tc main_arg4) = m ((c : Thread nD τ).loc main_arg4) :=
  (W8_of_ne m ρ c main_arg4 (by decide)).trans (arg4_at7 m ρ c)

theorem arg5_at8 (c : Dev nD) : W8 m ρ c (Proc.devRef .tc main_arg5) = m ((c : Thread nD τ).loc main_arg5) :=
  (W8_of_ne m ρ c main_arg5 (by decide)).trans (arg5_at7 m ρ c)

theorem arg6_at8 (c : Dev nD) : W8 m ρ c (Proc.devRef .tc main_arg6) = m ((c : Thread nD τ).loc main_arg6) :=
  (W8_of_ne m ρ c main_arg6 (by decide)).trans (arg6_at7 m ρ c)

theorem arg0_at13 (c : Dev nD) : W13 m ρ c (Proc.devRef .tc main_arg0) = m ((c : Thread nD τ).loc main_arg0) := by
  show StableHlo.after hostOps2_4 (StableHlo.after hostOps2_3 (StableHlo.after hostOps2_2 (StableHlo.after hostOps2_1 (StableHlo.after hostOps2 (W8 m ρ c))))) _ = _
  after_results_simp
  exact arg0_at8 m ρ c

theorem arg1_at13 (c : Dev nD) : W13 m ρ c (Proc.devRef .tc main_arg1) = m ((c : Thread nD τ).loc main_arg1) := by
  show StableHlo.after hostOps2_4 (StableHlo.after hostOps2_3 (StableHlo.after hostOps2_2 (StableHlo.after hostOps2_1 (StableHlo.after hostOps2 (W8 m ρ c))))) _ = _
  after_results_simp
  exact arg1_at8 m ρ c

theorem arg2_at13 (c : Dev nD) : W13 m ρ c (Proc.devRef .tc main_arg2) = m ((c : Thread nD τ).loc main_arg2) := by
  show StableHlo.after hostOps2_4 (StableHlo.after hostOps2_3 (StableHlo.after hostOps2_2 (StableHlo.after hostOps2_1 (StableHlo.after hostOps2 (W8 m ρ c))))) _ = _
  after_results_simp
  exact arg2_at8 m ρ c

theorem arg3_at13 (c : Dev nD) : W13 m ρ c (Proc.devRef .tc main_arg3) = m ((c : Thread nD τ).loc main_arg3) := by
  show StableHlo.after hostOps2_4 (StableHlo.after hostOps2_3 (StableHlo.after hostOps2_2 (StableHlo.after hostOps2_1 (StableHlo.after hostOps2 (W8 m ρ c))))) _ = _
  after_results_simp
  exact arg3_at8 m ρ c

theorem arg4_at13 (c : Dev nD) : W13 m ρ c (Proc.devRef .tc main_arg4) = m ((c : Thread nD τ).loc main_arg4) := by
  show StableHlo.after hostOps2_4 (StableHlo.after hostOps2_3 (StableHlo.after hostOps2_2 (StableHlo.after hostOps2_1 (StableHlo.after hostOps2 (W8 m ρ c))))) _ = _
  after_results_simp
  exact arg4_at8 m ρ c

theorem arg5_at13 (c : Dev nD) : W13 m ρ c (Proc.devRef .tc main_arg5) = m ((c : Thread nD τ).loc main_arg5) := by
  show StableHlo.after hostOps2_4 (StableHlo.after hostOps2_3 (StableHlo.after hostOps2_2 (StableHlo.after hostOps2_1 (StableHlo.after hostOps2 (W8 m ρ c))))) _ = _
  after_results_simp
  exact arg5_at8 m ρ c

theorem arg6_at13 (c : Dev nD) : W13 m ρ c (Proc.devRef .tc main_arg6) = m ((c : Thread nD τ).loc main_arg6) := by
  show StableHlo.after hostOps2_4 (StableHlo.after hostOps2_3 (StableHlo.after hostOps2_2 (StableHlo.after hostOps2_1 (StableHlo.after hostOps2 (W8 m ρ c))))) _ = _
  after_results_simp
  exact arg6_at8 m ρ c

theorem arg0_at14 (c : Dev nD) : W14 m ρ c (Proc.devRef .tc main_arg0) = m ((c : Thread nD τ).loc main_arg0) :=
  (W14_of_ne m ρ c main_arg0 (by decide)).trans (arg0_at13 m ρ c)

theorem arg1_at14 (c : Dev nD) : W14 m ρ c (Proc.devRef .tc main_arg1) = m ((c : Thread nD τ).loc main_arg1) :=
  (W14_of_ne m ρ c main_arg1 (by decide)).trans (arg1_at13 m ρ c)

theorem arg2_at14 (c : Dev nD) : W14 m ρ c (Proc.devRef .tc main_arg2) = m ((c : Thread nD τ).loc main_arg2) :=
  (W14_of_ne m ρ c main_arg2 (by decide)).trans (arg2_at13 m ρ c)

theorem arg3_at14 (c : Dev nD) : W14 m ρ c (Proc.devRef .tc main_arg3) = m ((c : Thread nD τ).loc main_arg3) :=
  (W14_of_ne m ρ c main_arg3 (by decide)).trans (arg3_at13 m ρ c)

theorem arg4_at14 (c : Dev nD) : W14 m ρ c (Proc.devRef .tc main_arg4) = m ((c : Thread nD τ).loc main_arg4) :=
  (W14_of_ne m ρ c main_arg4 (by decide)).trans (arg4_at13 m ρ c)

theorem arg5_at14 (c : Dev nD) : W14 m ρ c (Proc.devRef .tc main_arg5) = m ((c : Thread nD τ).loc main_arg5) :=
  ((W14_arr m ρ c 2).trans (((dat2 (V13 m ρ) c).arrAt_in 2 rfl _).trans (A_eq2 (V13 m ρ) c 2))).trans (arg5_at13 m ρ c)

theorem arg6_at14 (c : Dev nD) : W14 m ρ c (Proc.devRef .tc main_arg6) = m ((c : Thread nD τ).loc main_arg6) :=
  ((W14_arr m ρ c 3).trans (((dat2 (V13 m ρ) c).arrAt_in 3 rfl _).trans (A_eq2 (V13 m ρ) c 3))).trans (arg6_at13 m ρ c)

theorem arg0_at15 (c : Dev nD) : W15 m ρ c (Proc.devRef .tc main_arg0) = m ((c : Thread nD τ).loc main_arg0) := by
  show StableHlo.after hostOps3 (W14 m ρ c) _ = _
  after_results_simp
  exact arg0_at14 m ρ c

theorem arg1_at15 (c : Dev nD) : W15 m ρ c (Proc.devRef .tc main_arg1) = m ((c : Thread nD τ).loc main_arg1) := by
  show StableHlo.after hostOps3 (W14 m ρ c) _ = _
  after_results_simp
  exact arg1_at14 m ρ c

theorem arg2_at15 (c : Dev nD) : W15 m ρ c (Proc.devRef .tc main_arg2) = m ((c : Thread nD τ).loc main_arg2) := by
  show StableHlo.after hostOps3 (W14 m ρ c) _ = _
  after_results_simp
  exact arg2_at14 m ρ c

theorem arg3_at15 (c : Dev nD) : W15 m ρ c (Proc.devRef .tc main_arg3) = m ((c : Thread nD τ).loc main_arg3) := by
  show StableHlo.after hostOps3 (W14 m ρ c) _ = _
  after_results_simp
  exact arg3_at14 m ρ c

theorem arg4_at15 (c : Dev nD) : W15 m ρ c (Proc.devRef .tc main_arg4) = m ((c : Thread nD τ).loc main_arg4) := by
  show StableHlo.after hostOps3 (W14 m ρ c) _ = _
  after_results_simp
  exact arg4_at14 m ρ c

theorem arg5_at15 (c : Dev nD) : W15 m ρ c (Proc.devRef .tc main_arg5) = m ((c : Thread nD τ).loc main_arg5) := by
  show StableHlo.after hostOps3 (W14 m ρ c) _ = _
  after_results_simp
  exact arg5_at14 m ρ c

theorem arg6_at15 (c : Dev nD) : W15 m ρ c (Proc.devRef .tc main_arg6) = m ((c : Thread nD τ).loc main_arg6) := by
  show StableHlo.after hostOps3 (W14 m ρ c) _ = _
  after_results_simp
  exact arg6_at14 m ρ c

/-! ## The buffers the regions read, and the aggregates -/

/-- Region 0 reads the destination rows x[dst]. -/
theorem dstRows_at5 (c : Dev nD) : W5 m ρ c (Proc.devRef .tc main_v38) = Cert.ReferenceIdeal.Read.val_main_v38 (F := F) (m ((c : Thread nD τ).loc main_arg0)) (m ((c : Thread nD τ).loc main_arg2)) := by
  show StableHlo.after hostOps0_4 (StableHlo.after hostOps0_3 (StableHlo.after hostOps0_2 (StableHlo.after hostOps0_1 (StableHlo.after hostOps0 (W0 m ρ c))))) _ = _
  after_results_simp <;> rfl

/-- Region 0 reads the source rows x[src], each scaled by its edge's normalisation. -/
theorem scaledSrcRows_at5 (c : Dev nD) : W5 m ρ c (Proc.devRef .tc main_v41)
    = mulf (Cert.ReferenceIdeal.Read.val_main_v31 (F := F) (m ((c : Thread nD τ).loc main_arg0)) (m ((c : Thread nD τ).loc main_arg1))) (Cert.ReferenceIdeal.Read.val_main_v44 (F := F) (m ((c : Thread nD τ).loc main_arg1)) (m ((c : Thread nD τ).loc main_arg2))) := by
  show StableHlo.after hostOps0_4 (StableHlo.after hostOps0_3 (StableHlo.after hostOps0_2 (StableHlo.after hostOps0_1 (StableHlo.after hostOps0 (W0 m ρ c))))) _ = _
  after_results_simp <;> rfl

/-- The first layer's aggregate: the scatter-add, by destination, of the messages region 0 leaves. -/
theorem aggregate_at7 (c : Dev nD) : W7 m ρ c (Proc.devRef .tc main_v45)
    = Host.scatterAdd Cert.ReferenceIdeal.scatter_S100000x64_S1600000x1_S1600000x64_1_0_0_1 (Cert.ReferenceIdeal.Read.val_main_v46 (F := F))
        (Cert.ReferenceIdeal.Read.val_main_v47 (F := F) (m ((c : Thread nD τ).loc main_arg2))) (W6 m ρ c (Proc.devRef .tc main_v42)) := by
  show StableHlo.after hostOps1 (W6 m ρ c) _ = _
  after_results_simp
  rw [arg2_at6 m ρ c]
  rfl

/-- Region 2 reads the destination rows h[dst] of the hidden layer h that region 1 leaves. -/
theorem dstRows_at13 (c : Dev nD) : W13 m ρ c (Proc.devRef .tc main_v85)
    = Host.gather Cert.ReferenceIdeal.gather_S100000x64_S1600000x1_S1600000x64_1_0_n_n_0_1_164 (W8 m ρ c (Proc.devRef .tc main_v46))
        (Cert.ReferenceIdeal.Read.val_main_v89 (F := F) (m ((c : Thread nD τ).loc main_arg2))) := by
  show StableHlo.after hostOps2_4 (StableHlo.after hostOps2_3 (StableHlo.after hostOps2_2 (StableHlo.after hostOps2_1 (StableHlo.after hostOps2 (W8 m ρ c))))) _ = _
  after_results_simp
  rw [arg2_at8 m ρ c]
  rfl

/-- Region 2 reads the source rows h[src], each scaled by its edge's normalisation. -/
theorem scaledSrcRows_at13 (c : Dev nD) : W13 m ρ c (Proc.devRef .tc main_v88)
    = mulf (Host.gather Cert.ReferenceIdeal.gather_S100000x64_S1600000x1_S1600000x64_1_0_n_n_0_1_164 (W8 m ρ c (Proc.devRef .tc main_v46))
        (Cert.ReferenceIdeal.Read.val_main_v82 (F := F) (m ((c : Thread nD τ).loc main_arg1)))) (Cert.ReferenceIdeal.Read.val_main_v96 (F := F) (m ((c : Thread nD τ).loc main_arg1)) (m ((c : Thread nD τ).loc main_arg2))) := by
  show StableHlo.after hostOps2_4 (StableHlo.after hostOps2_3 (StableHlo.after hostOps2_2 (StableHlo.after hostOps2_1 (StableHlo.after hostOps2 (W8 m ρ c))))) _ = _
  after_results_simp
  rw [arg1_at8 m ρ c, arg2_at8 m ρ c]
  rfl

/-- The hidden layer is still in its buffer when region 3 reads it. -/
theorem hidden_at15 (c : Dev nD) : W15 m ρ c (Proc.devRef .tc main_v46) = W8 m ρ c (Proc.devRef .tc main_v46) := by
  show StableHlo.after hostOps3 (W14 m ρ c) _ = _
  after_results_simp
  refine (W14_of_ne m ρ c main_v46 (by decide)).trans ?_
  show StableHlo.after hostOps2_4 (StableHlo.after hostOps2_3 (StableHlo.after hostOps2_2 (StableHlo.after hostOps2_1 (StableHlo.after hostOps2 (W8 m ρ c))))) _ = _
  after_results_simp <;> rfl

/-- The second layer's aggregate: the scatter-add, by destination, of the messages region 2 leaves. -/
theorem aggregate_at15 (c : Dev nD) : W15 m ρ c (Proc.devRef .tc main_v92)
    = Host.scatterAdd Cert.ReferenceIdeal.scatter_S100000x64_S1600000x1_S1600000x64_1_0_0_1 (Cert.ReferenceIdeal.Read.val_main_v98 (F := F))
        (Cert.ReferenceIdeal.Read.val_main_v99 (F := F) (m ((c : Thread nD τ).loc main_arg2))) (W14 m ρ c (Proc.devRef .tc main_v89)) := by
  show StableHlo.after hostOps3 (W14 m ρ c) _ = _
  after_results_simp
  rw [arg2_at14 m ρ c]
  rfl

end Cert.KernelIdeal.Stages

end
-- ==== Proof.Spec.lean ====
/-
  The two dense steps of one graph-convolution layer, as functions of whole arrays of extended reals, index by index.

  For an [R, 64] array a of rows and a 64 × 64 matrix w, `rowsTimes a w` is the row-by-matrix product
  (a·w)(r, c) = ∑ₖ a(r, k)·w(k, c).  The per-edge message of a layer is
      edgeMessage a b w₁ w₂ = a·w₁ + (a ∘ b)·w₂          (∘ the entrywise product),
  the node update is x·w + agg, followed in the hidden layer by the maximum with 0.
-/
import Idealize.ShloMosaic.Lib.ValueIdx
import Idealize.ShloMosaic.PureOps.Ideal

noncomputable section

namespace Cert.Ngcf

open Idealize.ShloMosaic Idealize.ShloMosaic.ValueIdx
open scoped BigOperators

/-- An [r, c] array of extended reals. -/
abbrev Arr (r c : Nat) : Type := (⟨2, ![r, c]⟩ : Shape).Idx → EReal

/-- Row r of a against column c of w: ∑ₖ a(r, k)·w(k, c). -/
def rowsTimes {R : Nat} (a : Arr R 64) (w : Arr 64 64) : Arr R 64 :=
  fun i => ∑ k : Fin 64, a (ix2 (⟨(i 0).val, idx2_lt0 i⟩ : Fin R) k) * w (ix2 k (⟨(i 1).val, idx2_lt1 i⟩ : Fin 64))

/-- The per-edge message: a·w₁ + (a ∘ b)·w₂. -/
def edgeMessage {R : Nat} (a b : Arr R 64) (w1 w2 : Arr 64 64) : Arr R 64 :=
  fun i => rowsTimes a w1 i + rowsTimes (fun j => a j * b j) w2 i

/-- The node update without activation: x·w + agg. -/
def nodeUpdate {R : Nat} (x agg : Arr R 64) (w : Arr 64 64) : Arr R 64 :=
  fun i => rowsTimes x w i + agg i

/-- The node update of the hidden layer: max (x·w + agg) 0. -/
def nodeUpdateRelu {R : Nat} (x agg : Arr R 64) (w : Arr 64 64) : Arr R 64 :=
  fun i => max (nodeUpdate x agg w i) 0

theorem rowsTimes_ix2 {R : Nat} (a : Arr R 64) (w : Arr 64 64) (p : Fin R) (q : Fin 64) :
    rowsTimes a w (ix2 p q) = ∑ k : Fin 64, a (ix2 p k) * w (ix2 k q) := rfl

end Cert.Ngcf

end
-- ==== Proof.EdgeRegion.lean ====
/-
  The per-edge message regions of the two graph-convolution layers, each read as ONE function of the arrays the
  region finds.

  A region walks the [1600000, 64] arrays a and b in 200 blocks of 8000 rows; at every block it holds the two whole
  64 × 64 matrices w₁ and w₂ and writes the block's rows of a·w₁ + (a ∘ b)·w₂.  Row r of that product depends only on
  row r of a and of b, so the blocks written one after the other are the blocks of the whole-array message
  `Cert.Ngcf.edgeMessage a b w₁ w₂`; the 200 blocks tile the rows, so the array ends holding exactly that.
-/
import proofs.«105518_j14302241096099_1_alg».proof.Proof.Gen.KernelIdeal.Frame
import proofs.«105518_j14302241096099_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.EdgeRegion

open Idealize.ShloMosaic Idealize.ShloMosaic.TcCoe Idealize.ShloMosaic.ValueIdx Idealize.SL.Sem Cert.KernelIdeal Cert.KernelIdeal.Gen
open Idealize.ShloMosaic.Pipeline (Dat)
open scoped BigOperators

/-! ## One block: the rows-by-matrix product at an index -/

/-- The contraction of a block of 8000 rows of length 64 with a 64 × 64 matrix: rows × (64 contracted) × columns. -/
local notation "rowDot" => dot_S8000x64_S64x64_S8000x64_1_0_0_1_n_n

/-- The left operand's row is the output's row. -/
theorem lhs_row (i : S8000x64.Idx) (k : (rowDot).contr.Idx) : ((rowDot).lhsIdx i k 0).val = (i 0).val := by
  unfold DotDims.lhsIdx
  rw [dif_neg (show ¬(0 : Fin S8000x64.rank) ∈ (rowDot).lhsBatch by decide),
    dif_pos (show (0 : Fin S8000x64.rank) ∈ (rowDot).lhsNonContracting by decide)]
  rfl

/-- The left operand's column is the contracted coordinate. -/
theorem lhs_col (i : S8000x64.Idx) (k : (rowDot).contr.Idx) : ((rowDot).lhsIdx i k 1).val = (k ⟨0, by decide⟩).val :=
  (rowDot).lhsIdx_val_of_single rfl i k

/-- The matrix's row is the contracted coordinate. -/
theorem rhs_row (i : S8000x64.Idx) (k : (rowDot).contr.Idx) : ((rowDot).rhsIdx i k 0).val = (k ⟨0, by decide⟩).val :=
  (rowDot).rhsIdx_val_of_single rfl i k

/-- The matrix's column is the output's column. -/
theorem rhs_col (i : S8000x64.Idx) (k : (rowDot).contr.Idx) : ((rowDot).rhsIdx i k 1).val = (i 1).val := by
  unfold DotDims.rhsIdx
  rw [dif_neg (show ¬(1 : Fin S64x64.rank) ∈ (rowDot).rhsBatch by decide),
    dif_pos (show (1 : Fin S64x64.rank) ∈ (rowDot).rhsNonContracting by decide)]
  rfl

/-- A block times a matrix, accumulated into zero, at row p and column q: ∑ₖ x(p, k)·w(k, q). -/
theorem rows_times_apply {φ₁ φ₂ : FTy} (x : FVec Ideal S8000x64 φ₁) (w : FVec Ideal S64x64 φ₂) (p : Fin 8000) (q : Fin 64) :
    matmul (F := Ideal) rowDot none x w (constant (F := Ideal) S8000x64 .f32 0x00000000#32) (ix2 p q)
      = ∑ k : Fin 64, x (ix2 p k) * w (ix2 k q) := by
  refine (Ideal.matmul_constant_zero_apply rowDot none x w (ix2 p q)).trans ?_
  rw [← Equiv.sum_comp (contrEquiv1 rowDot 64 rfl rfl).symm]
  refine Finset.sum_congr rfl fun k _ => ?_
  have hk := contrEquiv1_symm_val rowDot 64 rfl rfl k
  have el : (rowDot).lhsIdx (ix2 p q) ((contrEquiv1 rowDot 64 rfl rfl).symm k) = ix2 p k := funext fun a => Fin.ext (by
    match a with
    | ⟨0, _⟩ => exact lhs_row _ _
    | ⟨1, _⟩ => exact (lhs_col _ _).trans hk)
  have er : (rowDot).rhsIdx (ix2 p q) ((contrEquiv1 rowDot 64 rfl rfl).symm k) = ix2 k q := funext fun a => Fin.ext (by
    match a with
    | ⟨0, _⟩ => exact (rhs_row _ _).trans hk
    | ⟨1, _⟩ => exact rhs_col _ _)
  rw [el, er]

/-- What the body computes from a block a of rows, the matching block b, and the two matrices, at row p and column q:
    ∑ₖ a(p, k)·w₁(k, q) + ∑ₖ (a(p, k)·b(p, k))·w₂(k, q).  The shape casts are to the same shape, the changes of float
    format are the identity on extended reals, and both products accumulate into zero. -/
theorem message_apply (a b : Vec Ideal S8000x64 .f32) (w1 w2 : Vec Ideal S64x64 .f32) (p : Fin 8000) (q : Fin 64) :
    k0_pay1 (F := Ideal) a b w1 w2 (ix2 p q)
      = (∑ k : Fin 64, a (ix2 p k) * w1 (ix2 k q)) + ∑ k : Fin 64, (a (ix2 p k) * b (ix2 p k)) * w2 (ix2 k q) := by
  unfold k0_pay1
  rw [shapeCast_self, shapeCast_self]
  refine (addf_apply _ _ _).trans ?_
  rw [rows_times_apply, rows_times_apply]
  rfl

/-- The body's result as a function of its four loaded blocks; the two layers' bodies are this same text. -/
abbrev message (a b : Vec Ideal S8000x64 .f32) (w1 w2 : Vec Ideal S64x64 .f32) : FVec Ideal S8000x64 .f32 :=
  k0_pay1 (F := Ideal) a b w1 w2

/-- One block against the whole arrays: if row p of the blocks a and b is row P of the arrays A and B, and column q of
    the blocks w₁, w₂ is column q of the matrices W₁, W₂, then entry (p, q) of the body's result is entry (P, q) of
    the whole-array message A·W₁ + (A ∘ B)·W₂. -/
theorem block_message (A B : Cert.Ngcf.Arr 1600000 64) (W1 W2 : Cert.Ngcf.Arr 64 64)
    (a b : Vec Ideal S8000x64 .f32) (w1 w2 : Vec Ideal S64x64 .f32) (p : Fin 8000) (P : Fin 1600000) (q : Fin 64)
    (ha : ∀ k : Fin 64, a (ix2 p k) = A (ix2 P k)) (hb : ∀ k : Fin 64, b (ix2 p k) = B (ix2 P k))
    (hw1 : ∀ k : Fin 64, w1 (ix2 k q) = W1 (ix2 k q)) (hw2 : ∀ k : Fin 64, w2 (ix2 k q) = W2 (ix2 k q)) :
    message a b w1 w2 (ix2 p q) = Cert.Ngcf.edgeMessage A B W1 W2 (ix2 P q) := by
  refine (message_apply a b w1 w2 p q).trans ?_
  show _ = Cert.Ngcf.rowsTimes A W1 (ix2 P q) + Cert.Ngcf.rowsTimes (fun j => A j * B j) W2 (ix2 P q)
  rw [Cert.Ngcf.rowsTimes_ix2, Cert.Ngcf.rowsTimes_ix2]
  refine congrArg₂ (· + ·) (Finset.sum_congr rfl fun k _ => ?_) (Finset.sum_congr rfl fun k _ => ?_)
  · rw [ha k, hw1 k]
  · rw [ha k, hb k, hw2 k]

/-! ## From blocks to the whole array -/

/-- The zero offsets of a whole-block access, however they are spelt. -/
theorem hz : (![0, 0] : Fin 2 → Nat) = fun _ => 0 := funext fun a => by fin_cases a <;> rfl

/-! ## The first layer's edge region -/

namespace LayerOne

/-- The printed index maps, decided once over the 200 grid points: the output block and both row blocks sit at block
    row t, column block 0; each matrix's one block is the whole matrix. -/
theorem index_facts : ∀ t : Fin cfg0.N, win0_4.index t (0 : Fin 2) = t.val ∧ win0_4.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Row p of block t is row 8000·t + p of the array. -/
theorem row_lt (t : Fin cfg0.N) (p : Fin 8000) : t.val * 8000 + p.val < 1600000 := by
  have hN : cfg0.N = 200 := N_0
  have ht : t.val < cfg0.N := t.isLt
  have hp : p.val < 8000 := p.isLt
  omega

/-- Where entry (p, q) of the output's block t lies in the array: row 8000·t + p, column q.
    (A block's coordinate is its index times the block size plus the coordinate inside the block.) -/
theorem out_emb (t : Fin cfg0.N) (p : Fin 8000) (q : Fin 64) :
    (((cfg0.win 4).blk t).view.emb (ix2 p q) : S1600000x64.Idx) = ix2 (⟨t.val * 8000 + p.val, row_lt t p⟩ : Fin 1600000) q := by
  obtain ⟨e0, e1, -⟩ := index_facts t
  funext a; apply Fin.ext
  match a with
  | ⟨0, _⟩ => show win0_4.index t (0 : Fin 2) * 8000 + 1 * p.val = t.val * 8000 + p.val; omega
  | ⟨1, _⟩ => show win0_4.index t (1 : Fin 2) * 64 + 1 * q.val = q.val; omega

/-- The same for the block of a. -/
theorem a_emb (t : Fin cfg0.N) (p : Fin 8000) (k : Fin 64) :
    (((cfg0.win 0).blk t).view.emb (ix2 p k) : S1600000x64.Idx) = ix2 (⟨t.val * 8000 + p.val, row_lt t p⟩ : Fin 1600000) k := by
  obtain ⟨-, -, e0, e1, -⟩ := index_facts t
  funext a; apply Fin.ext
  match a with
  | ⟨0, _⟩ => show win0_0.index t (0 : Fin 2) * 8000 + 1 * p.val = t.val * 8000 + p.val; omega
  | ⟨1, _⟩ => show win0_0.index t (1 : Fin 2) * 64 + 1 * k.val = k.val; omega

/-- The same for the block of b. -/
theorem b_emb (t : Fin cfg0.N) (p : Fin 8000) (k : Fin 64) :
    (((cfg0.win 1).blk t).view.emb (ix2 p k) : S1600000x64.Idx) = ix2 (⟨t.val * 8000 + p.val, row_lt t p⟩ : Fin 1600000) k := by
  obtain ⟨-, -, -, -, e0, e1, -⟩ := index_facts t
  funext a; apply Fin.ext
  match a with
  | ⟨0, _⟩ => show win0_1.index t (0 : Fin 2) * 8000 + 1 * p.val = t.val * 8000 + p.val; omega
  | ⟨1, _⟩ => show win0_1.index t (1 : Fin 2) * 64 + 1 * k.val = k.val; omega

/-- The first matrix's block is the matrix: entry (k, q) is entry (k, q). -/
theorem w1_emb (t : Fin cfg0.N) (k q : Fin 64) :
    (((cfg0.win 2).blk t).view.emb (ix2 k q) : S64x64.Idx) = ix2 k q := by
  obtain ⟨-, -, -, -, -, -, e0, e1, -⟩ := index_facts t
  funext a; apply Fin.ext
  match a with
  | ⟨0, _⟩ => show win0_2.index t (0 : Fin 2) * 64 + 1 * k.val = k.val; omega
  | ⟨1, _⟩ => show win0_2.index t (1 : Fin 2) * 64 + 1 * q.val = q.val; omega

/-- The second matrix's block is the matrix. -/
theorem w2_emb (t : Fin cfg0.N) (k q : Fin 64) :
    (((cfg0.win 3).blk t).view.emb (ix2 k q) : S64x64.Idx) = ix2 k q := by
  obtain ⟨-, -, -, -, -, -, -, -, e0, e1⟩ := index_facts t
  funext a; apply Fin.ext
  match a with
  | ⟨0, _⟩ => show win0_3.index t (0 : Fin 2) * 64 + 1 * k.val = k.val; omega
  | ⟨1, _⟩ => show win0_3.index t (1 : Fin 2) * 64 + 1 * q.val = q.val; omega

variable (V : (c : Dev nD) → (b : Ref sig .tc) → Buf (Elt Ideal) ((c : Thread nD τ).loc b))

/-- WHAT POINT t WRITES BACK is block t of the whole-array message of the arrays the region finds: entry (p, q) of
    the body's result uses row p of the blocks of a and b, which are row 8000·t + p of the arrays, and the matrices. -/
theorem flushed_eq (c : Dev nD) (t : Fin cfg0.N) :
    (dat0 (F := Ideal) V c).flushed 4 t = ((cfg0.win 4).blk t).view.read (Elt Ideal)
      (Cert.Ngcf.edgeMessage (V c main_v41 : Cert.Ngcf.Arr 1600000 64) (V c main_v38 : Cert.Ngcf.Arr 1600000 64)
        (V c main_arg3 : Cert.Ngcf.Arr 64 64) (V c main_arg4 : Cert.Ngcf.Arr 64 64)) := by
  show (cfg0.win 4).cut (grid0.coords t) ((dat0 V c).after 4 t) = _
  rw [after0_4]
  unfold out0_4
  rw [View.canon_unit_zero hz]
  simp only [View.ld_unit_zero (S := S8000x64) hz, View.ld_unit_zero (S := S64x64) hz]
  funext j
  obtain ⟨p, q, rfl⟩ : ∃ (p : Fin 8000) (q : Fin 64), j = ix2 p q := ⟨j 0, j 1, eq_ix2 j⟩
  show message (iblk0 V c 0 t) (iblk0 V c 1 t) (iblk0 V c 2 t) (iblk0 V c 3 t) (ix2 p q)
    = Cert.Ngcf.edgeMessage (V c main_v41 : Cert.Ngcf.Arr 1600000 64) (V c main_v38 : Cert.Ngcf.Arr 1600000 64)
        (V c main_arg3 : Cert.Ngcf.Arr 64 64) (V c main_arg4 : Cert.Ngcf.Arr 64 64) (((cfg0.win 4).blk t).view.emb (ix2 p q))
  rw [out_emb]
  refine block_message _ _ _ _ _ _ _ _ p _ q (fun k => ?_) (fun k => ?_) (fun k => ?_) (fun k => ?_)
  · show V c main_v41 (((cfg0.win 0).blk t).view.emb (ix2 p k)) = _
    rw [a_emb]
  · show V c main_v38 (((cfg0.win 1).blk t).view.emb (ix2 p k)) = _
    rw [b_emb]
  · show V c main_arg3 (((cfg0.win 2).blk t).view.emb (ix2 k q)) = _
    rw [w1_emb]
  · show V c main_arg4 (((cfg0.win 3).blk t).view.emb (ix2 k q)) = _
    rw [w2_emb]

/-- An index of the array is in point t's block iff each coordinate is in the block's range on its axis. -/
theorem mem_blk (t : Fin cfg0.N) (i : S1600000x64.Idx) :
    i ∈ ((cfg0.win 4).blk t).view.set ↔ ∀ a : Fin 2, win0_4.index t a * S8000x64.size a ≤ (i a).val
      ∧ (i a).val < win0_4.index t a * S8000x64.size a + S8000x64.size a := by
  show i ∈ ((View.whole main_v42).slice (win0_4.rect t)).set ↔ _
  rw [View.set_slice_whole, Rect.mem_set_unit]
  exact Iff.rfl

/-- The 200 blocks of 8000 rows tile the 1600000 rows: row r is in block r / 8000. -/
theorem covered (i : S1600000x64.Idx) :
    ∃ t : Fin cfg0.N, (cfg0.win 4).flush t = true ∧ i ∈ ((cfg0.win 4).blk t).view.set := by
  have hN : cfg0.N = 200 := N_0
  have hi0 : (i 0).val < 1600000 := idx2_lt0 i
  have hi1 : (i 1).val < 64 := idx2_lt1 i
  have ht : (i 0).val / 8000 < cfg0.N := by omega
  obtain ⟨e0, e1, -⟩ := index_facts ⟨(i 0).val / 8000, ht⟩
  refine ⟨⟨(i 0).val / 8000, ht⟩, flush0_4 _, ?_⟩
  rw [mem_blk]
  intro a
  match a with
  | ⟨0, _⟩ =>
    show win0_4.index ⟨(i 0).val / 8000, ht⟩ (0 : Fin 2) * 8000 ≤ (i 0).val
      ∧ (i 0).val < win0_4.index ⟨(i 0).val / 8000, ht⟩ (0 : Fin 2) * 8000 + 8000
    rw [e0]
    show (i 0).val / 8000 * 8000 ≤ (i 0).val ∧ (i 0).val < (i 0).val / 8000 * 8000 + 8000
    omega
  | ⟨1, _⟩ =>
    show win0_4.index ⟨(i 0).val / 8000, ht⟩ (1 : Fin 2) * 64 ≤ (i 1).val
      ∧ (i 1).val < win0_4.index ⟨(i 0).val / 8000, ht⟩ (1 : Fin 2) * 64 + 64
    rw [e1]
    omega

end LayerOne

/-- THE MESSAGE ARRAY after the first layer's edge region: the whole-array message a·w₁ + (a ∘ b)·w₂ of the arrays the region finds. -/
theorem edge0_array (V : (c : Dev nD) → (b : Ref sig .tc) → Buf (Elt Ideal) ((c : Thread nD τ).loc b)) (c : Dev nD) :
    (Gen.dat0 (F := Ideal) V c).arrAt 4 cfg0.N
      = Cert.Ngcf.edgeMessage (V c main_v41 : Cert.Ngcf.Arr 1600000 64) (V c main_v38 : Cert.Ngcf.Arr 1600000 64)
          (V c main_arg3 : Cert.Ngcf.Arr 64 64) (V c main_arg4 : Cert.Ngcf.Arr 64 64) :=
  (dat0 (F := Ideal) V c).arrAt_eq_of_cover 4 _ (fun t _ => LayerOne.flushed_eq V c t) LayerOne.covered

/-! ## The second layer's edge region -/

namespace LayerTwo

/-- The printed index maps, decided once over the 200 grid points: the output block and both row blocks sit at block
    row t, column block 0; each matrix's one block is the whole matrix. -/
theorem index_facts : ∀ t : Fin cfg2.N, win2_4.index t (0 : Fin 2) = t.val ∧ win2_4.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- Row p of block t is row 8000·t + p of the array. -/
theorem row_lt (t : Fin cfg2.N) (p : Fin 8000) : t.val * 8000 + p.val < 1600000 := by
  have hN : cfg2.N = 200 := N_2
  have ht : t.val < cfg2.N := t.isLt
  have hp : p.val < 8000 := p.isLt
  omega

/-- Where entry (p, q) of the output's block t lies in the array: row 8000·t + p, column q.
    (A block's coordinate is its index times the block size plus the coordinate inside the block.) -/
theorem out_emb (t : Fin cfg2.N) (p : Fin 8000) (q : Fin 64) :
    (((cfg2.win 4).blk t).view.emb (ix2 p q) : S1600000x64.Idx) = ix2 (⟨t.val * 8000 + p.val, row_lt t p⟩ : Fin 1600000) q := by
  obtain ⟨e0, e1, -⟩ := index_facts t
  funext a; apply Fin.ext
  match a with
  | ⟨0, _⟩ => show win2_4.index t (0 : Fin 2) * 8000 + 1 * p.val = t.val * 8000 + p.val; omega
  | ⟨1, _⟩ => show win2_4.index t (1 : Fin 2) * 64 + 1 * q.val = q.val; omega

/-- The same for the block of a. -/
theorem a_emb (t : Fin cfg2.N) (p : Fin 8000) (k : Fin 64) :
    (((cfg2.win 0).blk t).view.emb (ix2 p k) : S1600000x64.Idx) = ix2 (⟨t.val * 8000 + p.val, row_lt t p⟩ : Fin 1600000) k := by
  obtain ⟨-, -, e0, e1, -⟩ := index_facts t
  funext a; apply Fin.ext
  match a with
  | ⟨0, _⟩ => show win2_0.index t (0 : Fin 2) * 8000 + 1 * p.val = t.val * 8000 + p.val; omega
  | ⟨1, _⟩ => show win2_0.index t (1 : Fin 2) * 64 + 1 * k.val = k.val; omega

/-- The same for the block of b. -/
theorem b_emb (t : Fin cfg2.N) (p : Fin 8000) (k : Fin 64) :
    (((cfg2.win 1).blk t).view.emb (ix2 p k) : S1600000x64.Idx) = ix2 (⟨t.val * 8000 + p.val, row_lt t p⟩ : Fin 1600000) k := by
  obtain ⟨-, -, -, -, e0, e1, -⟩ := index_facts t
  funext a; apply Fin.ext
  match a with
  | ⟨0, _⟩ => show win2_1.index t (0 : Fin 2) * 8000 + 1 * p.val = t.val * 8000 + p.val; omega
  | ⟨1, _⟩ => show win2_1.index t (1 : Fin 2) * 64 + 1 * k.val = k.val; omega

/-- The first matrix's block is the matrix: entry (k, q) is entry (k, q). -/
theorem w1_emb (t : Fin cfg2.N) (k q : Fin 64) :
    (((cfg2.win 2).blk t).view.emb (ix2 k q) : S64x64.Idx) = ix2 k q := by
  obtain ⟨-, -, -, -, -, -, e0, e1, -⟩ := index_facts t
  funext a; apply Fin.ext
  match a with
  | ⟨0, _⟩ => show win2_2.index t (0 : Fin 2) * 64 + 1 * k.val = k.val; omega
  | ⟨1, _⟩ => show win2_2.index t (1 : Fin 2) * 64 + 1 * q.val = q.val; omega

/-- The second matrix's block is the matrix. -/
theorem w2_emb (t : Fin cfg2.N) (k q : Fin 64) :
    (((cfg2.win 3).blk t).view.emb (ix2 k q) : S64x64.Idx) = ix2 k q := by
  obtain ⟨-, -, -, -, -, -, -, -, e0, e1⟩ := index_facts t
  funext a; apply Fin.ext
  match a with
  | ⟨0, _⟩ => show win2_3.index t (0 : Fin 2) * 64 + 1 * k.val = k.val; omega
  | ⟨1, _⟩ => show win2_3.index t (1 : Fin 2) * 64 + 1 * q.val = q.val; omega

variable (V : (c : Dev nD) → (b : Ref sig .tc) → Buf (Elt Ideal) ((c : Thread nD τ).loc b))

/-- WHAT POINT t WRITES BACK is block t of the whole-array message of the arrays the region finds: entry (p, q) of
    the body's result uses row p of the blocks of a and b, which are row 8000·t + p of the arrays, and the matrices. -/
theorem flushed_eq (c : Dev nD) (t : Fin cfg2.N) :
    (dat2 (F := Ideal) V c).flushed 4 t = ((cfg2.win 4).blk t).view.read (Elt Ideal)
      (Cert.Ngcf.edgeMessage (V c main_v88 : Cert.Ngcf.Arr 1600000 64) (V c main_v85 : Cert.Ngcf.Arr 1600000 64)
        (V c main_arg5 : Cert.Ngcf.Arr 64 64) (V c main_arg6 : Cert.Ngcf.Arr 64 64)) := by
  show (cfg2.win 4).cut (grid2.coords t) ((dat2 V c).after 4 t) = _
  rw [after2_4]
  unfold out2_4
  rw [View.canon_unit_zero hz]
  simp only [View.ld_unit_zero (S := S8000x64) hz, View.ld_unit_zero (S := S64x64) hz]
  funext j
  obtain ⟨p, q, rfl⟩ : ∃ (p : Fin 8000) (q : Fin 64), j = ix2 p q := ⟨j 0, j 1, eq_ix2 j⟩
  show message (iblk2 V c 0 t) (iblk2 V c 1 t) (iblk2 V c 2 t) (iblk2 V c 3 t) (ix2 p q)
    = Cert.Ngcf.edgeMessage (V c main_v88 : Cert.Ngcf.Arr 1600000 64) (V c main_v85 : Cert.Ngcf.Arr 1600000 64)
        (V c main_arg5 : Cert.Ngcf.Arr 64 64) (V c main_arg6 : Cert.Ngcf.Arr 64 64) (((cfg2.win 4).blk t).view.emb (ix2 p q))
  rw [out_emb]
  refine block_message _ _ _ _ _ _ _ _ p _ q (fun k => ?_) (fun k => ?_) (fun k => ?_) (fun k => ?_)
  · show V c main_v88 (((cfg2.win 0).blk t).view.emb (ix2 p k)) = _
    rw [a_emb]
  · show V c main_v85 (((cfg2.win 1).blk t).view.emb (ix2 p k)) = _
    rw [b_emb]
  · show V c main_arg5 (((cfg2.win 2).blk t).view.emb (ix2 k q)) = _
    rw [w1_emb]
  · show V c main_arg6 (((cfg2.win 3).blk t).view.emb (ix2 k q)) = _
    rw [w2_emb]

/-- An index of the array is in point t's block iff each coordinate is in the block's range on its axis. -/
theorem mem_blk (t : Fin cfg2.N) (i : S1600000x64.Idx) :
    i ∈ ((cfg2.win 4).blk t).view.set ↔ ∀ a : Fin 2, win2_4.index t a * S8000x64.size a ≤ (i a).val
      ∧ (i a).val < win2_4.index t a * S8000x64.size a + S8000x64.size a := by
  show i ∈ ((View.whole main_v89).slice (win2_4.rect t)).set ↔ _
  rw [View.set_slice_whole, Rect.mem_set_unit]
  exact Iff.rfl

/-- The 200 blocks of 8000 rows tile the 1600000 rows: row r is in block r / 8000. -/
theorem covered (i : S1600000x64.Idx) :
    ∃ t : Fin cfg2.N, (cfg2.win 4).flush t = true ∧ i ∈ ((cfg2.win 4).blk t).view.set := by
  have hN : cfg2.N = 200 := N_2
  have hi0 : (i 0).val < 1600000 := idx2_lt0 i
  have hi1 : (i 1).val < 64 := idx2_lt1 i
  have ht : (i 0).val / 8000 < cfg2.N := by omega
  obtain ⟨e0, e1, -⟩ := index_facts ⟨(i 0).val / 8000, ht⟩
  refine ⟨⟨(i 0).val / 8000, ht⟩, flush2_4 _, ?_⟩
  rw [mem_blk]
  intro a
  match a with
  | ⟨0, _⟩ =>
    show win2_4.index ⟨(i 0).val / 8000, ht⟩ (0 : Fin 2) * 8000 ≤ (i 0).val
      ∧ (i 0).val < win2_4.index ⟨(i 0).val / 8000, ht⟩ (0 : Fin 2) * 8000 + 8000
    rw [e0]
    show (i 0).val / 8000 * 8000 ≤ (i 0).val ∧ (i 0).val < (i 0).val / 8000 * 8000 + 8000
    omega
  | ⟨1, _⟩ =>
    show win2_4.index ⟨(i 0).val / 8000, ht⟩ (1 : Fin 2) * 64 ≤ (i 1).val
      ∧ (i 1).val < win2_4.index ⟨(i 0).val / 8000, ht⟩ (1 : Fin 2) * 64 + 64
    rw [e1]
    omega

end LayerTwo

/-- THE MESSAGE ARRAY after the second layer's edge region: the whole-array message a·w₁ + (a ∘ b)·w₂ of the arrays the region finds. -/
theorem edge2_array (V : (c : Dev nD) → (b : Ref sig .tc) → Buf (Elt Ideal) ((c : Thread nD τ).loc b)) (c : Dev nD) :
    (Gen.dat2 (F := Ideal) V c).arrAt 4 cfg2.N
      = Cert.Ngcf.edgeMessage (V c main_v88 : Cert.Ngcf.Arr 1600000 64) (V c main_v85 : Cert.Ngcf.Arr 1600000 64)
          (V c main_arg5 : Cert.Ngcf.Arr 64 64) (V c main_arg6 : Cert.Ngcf.Arr 64 64) :=
  (dat2 (F := Ideal) V c).arrAt_eq_of_cover 4 _ (fun t _ => LayerTwo.flushed_eq V c t) LayerTwo.covered

end Cert.KernelIdeal.EdgeRegion

end
-- ==== Proof.NodeRegion.lean ====
/-
  The node kernel of a graph-convolution layer, read as one function of whole arrays.

  Each of the two node regions walks the 100000 rows of the node arrays in 20 blocks of 5000 rows.  At a block it
  forms, row by row, the product of the block of x with the whole 64 × 64 matrix w, adds the same block of the
  aggregated messages, and (in the hidden layer only) takes the maximum with 0.  Row r of a block at grid point t is
  row 5000·t + r of the array, and the 20 blocks tile the array, so after the region the output array holds
  x·w + agg (or its maximum with 0) at EVERY index: `node1_array` and `node3_array`.
-/
import proofs.«105518_j14302241096099_1_alg».proof.Proof.Gen.KernelIdeal.Frame
import proofs.«105518_j14302241096099_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.NodeRegion

open Idealize.ShloMosaic Idealize.ShloMosaic.TcCoe Idealize.ShloMosaic.ValueIdx Idealize.SL.Sem Cert.KernelIdeal Cert.KernelIdeal.Gen
open Idealize.ShloMosaic.Pipeline (Dat)
open scoped BigOperators

/- The dimension numbers of the block product, `dot_S5000x64_S64x64_S5000x64_1_0_0_1_n_n`: rows of a [5000, 64] block against
   columns of a [64, 64] matrix, contracting the block's axis 1 with the matrix's axis 0. -/

/-! ## The product of a block with the matrix, at an index -/

/-- The left operand is read in the output's row. -/
theorem lhs_row (i : S5000x64.Idx) (k : dot_S5000x64_S64x64_S5000x64_1_0_0_1_n_n.contr.Idx) : (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- The left operand is read in the contracted column. -/
theorem lhs_col (i : S5000x64.Idx) (k : dot_S5000x64_S64x64_S5000x64_1_0_0_1_n_n.contr.Idx) : (dot_S5000x64_S64x64_S5000x64_1_0_0_1_n_n.lhsIdx i k 1).val = (k ⟨0, by decide⟩).val :=
  dot_S5000x64_S64x64_S5000x64_1_0_0_1_n_n.lhsIdx_val_of_single rfl i k

/-- The matrix is read in the contracted row. -/
theorem rhs_row (i : S5000x64.Idx) (k : dot_S5000x64_S64x64_S5000x64_1_0_0_1_n_n.contr.Idx) : (dot_S5000x64_S64x64_S5000x64_1_0_0_1_n_n.rhsIdx i k 0).val = (k ⟨0, by decide⟩).val :=
  dot_S5000x64_S64x64_S5000x64_1_0_0_1_n_n.rhsIdx_val_of_single rfl i k

/-- The matrix is read in the output's column. -/
theorem rhs_col (i : S5000x64.Idx) (k : dot_S5000x64_S64x64_S5000x64_1_0_0_1_n_n.contr.Idx) : (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The block product into a zero accumulator, at row p and column q: ∑ₖ a(p, k)·w(k, q).  The sum over the
    one-axis contraction index is re-indexed by its coordinate. -/
theorem blockProduct_apply {φ₁ φ₂ : FTy} (a : FVec Ideal S5000x64 φ₁) (w : FVec Ideal S64x64 φ₂) (p : Fin 5000) (q : Fin 64) :
    matmul (F := Ideal) dot_S5000x64_S64x64_S5000x64_1_0_0_1_n_n none a w (constant (F := Ideal) S5000x64 .f32 0x00000000#32) (ix2 p q)
      = ∑ k : Fin 64, a (ix2 p k) * w (ix2 k q) := by
  refine (Ideal.matmul_constant_zero_apply dot_S5000x64_S64x64_S5000x64_1_0_0_1_n_n none a w (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun d => Fin.ext (by
    match d with
    | ⟨0, _⟩ => exact lhs_row _ _
    | ⟨1, _⟩ => exact (lhs_col _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun d => Fin.ext (by
    match d with
    | ⟨0, _⟩ => exact (rhs_row _ _).trans hk
    | ⟨1, _⟩ => exact rhs_col _ _)
  rw [el, er]

/-! ## What the body stores, at an index -/

/-- The hidden layer's body: max (x·w + agg) 0 at row p, column q of the block.  (The narrowing of the two
    factors to a shorter float format is the identity on the ideal values; the cast to the same shape is the
    identity; the zero word is the real 0.) -/
theorem hiddenPayload_apply (x : Vec Ideal S5000x64 .f32) (w : Vec Ideal S64x64 .f32) (g : Vec Ideal S5000x64 .f32)
    (p : Fin 5000) (q : Fin 64) :
    k1_pay1 (F := Ideal) x w g (ix2 p q) = max ((∑ k : Fin 64, x (ix2 p k) * w (ix2 k q)) + g (ix2 p q)) 0 := by
  unfold k1_pay1
  show max (matmul (F := Ideal) dot_S5000x64_S64x64_S5000x64_1_0_0_1_n_n none (truncf .bf16 x bitsLt_bf16_f32) (truncf .bf16 w bitsLt_bf16_f32)
      (constant (F := Ideal) S5000x64 .f32 0x00000000#32) (ix2 p q)
        + shapeCast S5000x64 g shapeCasts_S5000x64_S5000x64 (ix2 p q)) (Ideal.ofBits .f32 0x00000000#32) = _
  rw [blockProduct_apply, shapeCast_self, Ideal.ofBits_zero_f32]
  rfl

/-- The output layer's body: x·w + agg at row p, column q of the block. -/
theorem outputPayload_apply (x : Vec Ideal S5000x64 .f32) (w : Vec Ideal S64x64 .f32) (g : Vec Ideal S5000x64 .f32)
    (p : Fin 5000) (q : Fin 64) :
    k3_pay1 (F := Ideal) x w g (ix2 p q) = (∑ k : Fin 64, x (ix2 p k) * w (ix2 k q)) + g (ix2 p q) := by
  unfold k3_pay1
  show matmul (F := Ideal) dot_S5000x64_S64x64_S5000x64_1_0_0_1_n_n none (truncf .bf16 (shapeCast S5000x64 x shapeCasts_S5000x64_S5000x64) bitsLt_bf16_f32)
      (truncf .bf16 w bitsLt_bf16_f32) (constant (F := Ideal) S5000x64 .f32 0x00000000#32) (ix2 p q)
        + shapeCast S5000x64 g shapeCasts_S5000x64_S5000x64 (ix2 p q) = _
  rw [blockProduct_apply, shapeCast_self, shapeCast_self]
  rfl

/-- The hidden layer's body at (p, q) is the node update at the array index i, whenever the three loaded blocks
    are read from the arrays X, A, W where i says: row p of the x block is row i₀ of X, column q of the matrix is
    column i₁ of W, and the aggregate block at (p, q) is A at i. -/
theorem hiddenPayload_eq_nodeUpdateRelu (X A : Cert.Ngcf.Arr 100000 64) (W : Cert.Ngcf.Arr 64 64)
    (x : Vec Ideal S5000x64 .f32) (w : Vec Ideal S64x64 .f32) (g : Vec Ideal S5000x64 .f32)
    (i : S100000x64.Idx) (p : Fin 5000) (q : Fin 64)
    (hx : ∀ k : Fin 64, x (ix2 p k) = X (ix2 (⟨(i 0).val, idx2_lt0 i⟩ : Fin 100000) k))
    (hw : ∀ k : Fin 64, w (ix2 k q) = W (ix2 k (⟨(i 1).val, idx2_lt1 i⟩ : Fin 64)))
    (hg : g (ix2 p q) = A i) :
    k1_pay1 (F := Ideal) x w g (ix2 p q) = Cert.Ngcf.nodeUpdateRelu X A W i := by
  rw [hiddenPayload_apply, hg]
  show _ = max ((∑ k : Fin 64, X (ix2 (⟨(i 0).val, idx2_lt0 i⟩ : Fin 100000) k) * W (ix2 k (⟨(i 1).val, idx2_lt1 i⟩ : Fin 64))) + A i) 0
  rw [Finset.sum_congr rfl fun k _ => show x (ix2 p k) * w (ix2 k q) = _ by rw [hx k, hw k]]

/-- The same for the output layer's body, which has no maximum. -/
theorem outputPayload_eq_nodeUpdate (X A : Cert.Ngcf.Arr 100000 64) (W : Cert.Ngcf.Arr 64 64)
    (x : Vec Ideal S5000x64 .f32) (w : Vec Ideal S64x64 .f32) (g : Vec Ideal S5000x64 .f32)
    (i : S100000x64.Idx) (p : Fin 5000) (q : Fin 64)
    (hx : ∀ k : Fin 64, x (ix2 p k) = X (ix2 (⟨(i 0).val, idx2_lt0 i⟩ : Fin 100000) k))
    (hw : ∀ k : Fin 64, w (ix2 k q) = W (ix2 k (⟨(i 1).val, idx2_lt1 i⟩ : Fin 64)))
    (hg : g (ix2 p q) = A i) :
    k3_pay1 (F := Ideal) x w g (ix2 p q) = Cert.Ngcf.nodeUpdate X A W i := by
  rw [outputPayload_apply, hg]
  show _ = (∑ k : Fin 64, X (ix2 (⟨(i 0).val, idx2_lt0 i⟩ : Fin 100000) k) * W (ix2 k (⟨(i 1).val, idx2_lt1 i⟩ : Fin 64))) + A i
  rw [Finset.sum_congr rfl fun k _ => show x (ix2 p k) * w (ix2 k q) = _ by rw [hx k, hw k]]

/-! ## The hidden layer's node region -/

/-- The zero offsets of a whole-buffer load or store, however spelt. -/
theorem hz : (![0, 0] : Fin 2 → Nat) = fun _ => 0 := funext fun a => by fin_cases a <;> rfl

/-- The printed index maps over the 20 grid points: the x block, the aggregate block and the output block at point
    t are all block t along the rows and block 0 along the columns; the matrix's window is block 0 on both axes. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b))

/-- What grid point t writes back is block t of the node update of the arrays the region finds: row p of the
    block is row 5000·t + p of the arrays, on every window that moves with the grid, and the matrix is whole. -/
theorem flushed1_eq (c : Dev nD) (t : Fin cfg1.N) :
    (dat1 (F := Ideal) V c).flushed 3 t
      = ((cfg1.win 3).blk t).view.read (Elt Ideal)
          (Cert.Ngcf.nodeUpdateRelu (R := 100000) (V c main_arg0) (V c main_v45) (V c main_arg3)) := by
  show (cfg1.win 3).cut (grid1.coords t) ((dat1 (F := Ideal) V c).after 3 t) = _
  rw [after1_3]
  unfold out1_3
  rw [View.canon_unit_zero hz]
  simp only [View.ld_unit_zero (S := S5000x64) hz, View.ld_unit_zero (S := S64x64) hz]
  obtain ⟨a0, a1, b0, b1, m0, m1, o0, o1⟩ := blockIndex1 t
  funext j
  obtain ⟨p, q, rfl⟩ : ∃ (p : Fin 5000) (q : Fin 64), j = ix2 p q := ⟨j 0, j 1, eq_ix2 j⟩
  show k1_pay1 (F := Ideal) (iblk1 V c 0 t) (iblk1 V c 2 t) (iblk1 V c 1 t) (ix2 p q)
      = Cert.Ngcf.nodeUpdateRelu (R := 100000) (V c main_arg0) (V c main_v45) (V c main_arg3)
          (((cfg1.win 3).blk t).view.emb (ix2 p q))
  refine hiddenPayload_eq_nodeUpdateRelu _ _ _ _ _ _ _ p q (fun k => ?_) (fun k => ?_) ?_
  · -- row p of the x block at point t is row 5000·t + p of x
    show V c main_arg0 (((cfg1.win 0).blk t).view.emb (ix2 p k)) = V c main_arg0 _
    refine congrArg (V c main_arg0) (funext fun a => Fin.ext ?_)
    match a with
    | ⟨0, _⟩ => show win1_0.index t (0 : Fin 2) * 5000 + 1 * p.val = win1_3.index t (0 : Fin 2) * 5000 + 1 * p.val; omega
    | ⟨1, _⟩ => show win1_0.index t (1 : Fin 2) * 64 + 1 * k.val = k.val; omega
  · -- the matrix's block is the whole matrix
    show V c main_arg3 (((cfg1.win 2).blk t).view.emb (ix2 k q)) = V c main_arg3 _
    refine congrArg (V c main_arg3) (funext fun a => Fin.ext ?_)
    match a with
    | ⟨0, _⟩ => show win1_2.index t (0 : Fin 2) * 64 + 1 * k.val = k.val; omega
    | ⟨1, _⟩ => show win1_2.index t (1 : Fin 2) * 64 + 1 * q.val = win1_3.index t (1 : Fin 2) * 64 + 1 * q.val; omega
  · -- the aggregate block moves with the output block
    show V c main_v45 (((cfg1.win 1).blk t).view.emb (ix2 p q)) = V c main_v45 _
    refine congrArg (V c main_v45) (funext fun a => Fin.ext ?_)
    match a with
    | ⟨0, _⟩ => show win1_1.index t (0 : Fin 2) * 5000 + 1 * p.val = win1_3.index t (0 : Fin 2) * 5000 + 1 * p.val; omega
    | ⟨1, _⟩ => show win1_1.index t (1 : Fin 2) * 64 + 1 * q.val = win1_3.index t (1 : Fin 2) * 64 + 1 * q.val; omega

/-- An index of the node array is in point t's output block iff each coordinate is in the block's range. -/
theorem mem_block1 (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v46).slice (win1_3.rect t)).set ↔ _
  rw [View.set_slice_whole, Rect.mem_set_unit]
  exact Iff.rfl

/-- The 20 blocks of 5000 rows tile the 100000 rows: row r is in the block of point r / 5000, which writes back. -/
theorem covered1 (i : S100000x64.Idx) :
    ∃ t : Fin cfg1.N, (cfg1.win 3).flush t = true ∧ i ∈ ((cfg1.win 3).blk t).view.set := by
  have hN : grid1.N = 20 := N_1
  have hi0 : (i 0).val < 100000 := idx2_lt0 i
  have hi1 : (i 1).val < 64 := idx2_lt1 i
  obtain ⟨t, ht⟩ : ∃ t : Fin cfg1.N, t.val = (i 0).val / 5000 :=
    ⟨⟨(i 0).val / 5000, by show (i 0).val / 5000 < grid1.N; omega⟩, rfl⟩
  obtain ⟨-, -, -, -, -, -, o0, o1⟩ := blockIndex1 t
  refine ⟨t, flush1_3 t, ?_⟩
  rw [mem_block1]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 64 ≤ (i 1).val ∧ (i 1).val < win1_3.index t (1 : Fin 2) * 64 + 64
    omega

/-- THE HIDDEN LAYER'S NODE ARRAY after its region: max (x·w + agg) 0 of the arrays the region finds, at every
    index — each point writes its block of that function, and the blocks cover the array. -/
theorem node1_array (c : Dev nD) :
    (dat1 (F := Ideal) V c).arrAt 3 cfg1.N
      = Cert.Ngcf.nodeUpdateRelu (R := 100000) (V c main_arg0) (V c main_v45) (V c main_arg3) :=
  (dat1 (F := Ideal) V c).arrAt_eq_of_cover 3 _ (fun t _ => flushed1_eq V c t) covered1

end

/-! ## The output layer's node region -/

/-- The output layer's region has the same index maps: the three row windows at point t are block t along the rows
    and block 0 along the columns, the matrix's window is block 0 on both axes (decided over the 20 points). -/
theorem blockIndex3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

section
variable (V : (c : Dev nD) → (b : Ref sig .tc) → Buf (Elt Ideal) ((c : Thread nD τ).loc b))

/-- What grid point t writes back is block t of x·w + agg of the arrays the region finds (here x is the hidden
    layer's node array and agg the second aggregate). -/
theorem flushed3_eq (c : Dev nD) (t : Fin cfg3.N) :
    (dat3 (F := Ideal) V c).flushed 3 t
      = ((cfg3.win 3).blk t).view.read (Elt Ideal)
          (Cert.Ngcf.nodeUpdate (R := 100000) (V c main_v46) (V c main_v92) (V c main_arg5)) := by
  show (cfg3.win 3).cut (grid3.coords t) ((dat3 (F := Ideal) V c).after 3 t) = _
  rw [after3_3]
  unfold out3_3
  rw [View.canon_unit_zero hz]
  simp only [View.ld_unit_zero (S := S5000x64) hz, View.ld_unit_zero (S := S64x64) hz]
  obtain ⟨a0, a1, b0, b1, m0, m1, o0, o1⟩ := blockIndex3 t
  funext j
  obtain ⟨p, q, rfl⟩ : ∃ (p : Fin 5000) (q : Fin 64), j = ix2 p q := ⟨j 0, j 1, eq_ix2 j⟩
  show k3_pay1 (F := Ideal) (iblk3 V c 0 t) (iblk3 V c 2 t) (iblk3 V c 1 t) (ix2 p q)
      = Cert.Ngcf.nodeUpdate (R := 100000) (V c main_v46) (V c main_v92) (V c main_arg5)
          (((cfg3.win 3).blk t).view.emb (ix2 p q))
  refine outputPayload_eq_nodeUpdate _ _ _ _ _ _ _ p q (fun k => ?_) (fun k => ?_) ?_
  · -- row p of the x block at point t is row 5000·t + p of x
    show V c main_v46 (((cfg3.win 0).blk t).view.emb (ix2 p k)) = V c main_v46 _
    refine congrArg (V c main_v46) (funext fun a => Fin.ext ?_)
    match a with
    | ⟨0, _⟩ => show win3_0.index t (0 : Fin 2) * 5000 + 1 * p.val = win3_3.index t (0 : Fin 2) * 5000 + 1 * p.val; omega
    | ⟨1, _⟩ => show win3_0.index t (1 : Fin 2) * 64 + 1 * k.val = k.val; omega
  · -- the matrix's block is the whole matrix
    show V c main_arg5 (((cfg3.win 2).blk t).view.emb (ix2 k q)) = V c main_arg5 _
    refine congrArg (V c main_arg5) (funext fun a => Fin.ext ?_)
    match a with
    | ⟨0, _⟩ => show win3_2.index t (0 : Fin 2) * 64 + 1 * k.val = k.val; omega
    | ⟨1, _⟩ => show win3_2.index t (1 : Fin 2) * 64 + 1 * q.val = win3_3.index t (1 : Fin 2) * 64 + 1 * q.val; omega
  · -- the aggregate block moves with the output block
    show V c main_v92 (((cfg3.win 1).blk t).view.emb (ix2 p q)) = V c main_v92 _
    refine congrArg (V c main_v92) (funext fun a => Fin.ext ?_)
    match a with
    | ⟨0, _⟩ => show win3_1.index t (0 : Fin 2) * 5000 + 1 * p.val = win3_3.index t (0 : Fin 2) * 5000 + 1 * p.val; omega
    | ⟨1, _⟩ => show win3_1.index t (1 : Fin 2) * 64 + 1 * q.val = win3_3.index t (1 : Fin 2) * 64 + 1 * q.val; omega

/-- Membership in point t's output block of the output layer's array, by coordinates. -/
theorem mem_block3 (t : Fin cfg3.N) (i : S100000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v93).slice (win3_3.rect t)).set ↔ _
  rw [View.set_slice_whole, Rect.mem_set_unit]
  exact Iff.rfl

/-- Again row r is in the block of point r / 5000, and every point writes its block back. -/
theorem covered3 (i : S100000x64.Idx) :
    ∃ t : Fin cfg3.N, (cfg3.win 3).flush t = true ∧ i ∈ ((cfg3.win 3).blk t).view.set := by
  have hN : grid3.N = 20 := N_3
  have hi0 : (i 0).val < 100000 := idx2_lt0 i
  have hi1 : (i 1).val < 64 := idx2_lt1 i
  obtain ⟨t, ht⟩ : ∃ t : Fin cfg3.N, t.val = (i 0).val / 5000 :=
    ⟨⟨(i 0).val / 5000, by show (i 0).val / 5000 < grid3.N; omega⟩, rfl⟩
  obtain ⟨-, -, -, -, -, -, o0, o1⟩ := blockIndex3 t
  refine ⟨t, flush3_3 t, ?_⟩
  rw [mem_block3]
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 64 ≤ (i 1).val ∧ (i 1).val < win3_3.index t (1 : Fin 2) * 64 + 64
    omega

/-- THE OUTPUT LAYER'S NODE ARRAY after its region: x·w + agg of the arrays the region finds, at every index. -/
theorem node3_array (c : Dev nD) :
    (dat3 (F := Ideal) V c).arrAt 3 cfg3.N
      = Cert.Ngcf.nodeUpdate (R := 100000) (V c main_v46) (V c main_v92) (V c main_arg5) :=
  (dat3 (F := Ideal) V c).arrAt_eq_of_cover 3 _ (fun t _ => flushed3_eq V c t) covered3

end

end Cert.KernelIdeal.NodeRegion

end
-- ==== Proof.LibScaleAcrossSum.lean ====
/-
  Laws on the extended reals for moving a scale factor across a contraction.

  A factor n with 0 ≤ n < ⊤ distributes over every sum of extended reals, infinite terms included
  (multiplication by such a factor is additive on EReal), so a row scaled before two matrix products
      ∑ₖ (aₖ·n)·w₁ₖ + ∑ₖ ((aₖ·n)·bₖ)·w₂ₖ
  equals the two products scaled afterwards, (∑ₖ aₖ·w₁ₖ + ∑ₖ (aₖ·bₖ)·w₂ₖ)·n, with no finiteness
  hypothesis on a, b, w₁, w₂.  The factor met in a degree-normalised graph convolution is
  rsqrt (d₁·d₂) for two degrees that are reals ≥ 1; it lies in [0, ⊤).
-/
import Idealize.ShloMosaic.PureOps.Ideal

noncomputable section

namespace Cert.ScaleAcrossSum

open Idealize.ShloMosaic
open scoped BigOperators

/-- A factor in [0, ⊤) distributes over a finite sum of extended reals. -/
theorem sum_mul_of_nonneg_of_ne_top {ι : Type*} (s : Finset ι) (f : ι → EReal) {n : EReal}
    (h0 : 0 ≤ n) (ht : n ≠ ⊤) : (∑ k ∈ s, f k) * n = ∑ k ∈ s, f k * n := by
  classical
  induction s using Finset.induction_on with
  | empty => simp
  | insert a s ha ih =>
    rw [Finset.sum_insert ha, Finset.sum_insert ha, EReal.right_distrib_of_nonneg_of_ne_top h0 ht, ih]

/-- Scaling the left operand's row by n before the two contractions is scaling their sum by n afterwards. -/
theorem scaled_message {K : Type*} [Fintype K] (a b w1 w2 : K → EReal) {n : EReal} (h0 : 0 ≤ n) (ht : n ≠ ⊤) :
    (∑ k, (a k * n) * w1 k) + (∑ k, ((a k * n) * b k) * w2 k)
      = ((∑ k, a k * w1 k) + (∑ k, (a k * b k) * w2 k)) * n := by
  rw [EReal.right_distrib_of_nonneg_of_ne_top h0 ht, sum_mul_of_nonneg_of_ne_top _ _ h0 ht,
    sum_mul_of_nonneg_of_ne_top _ _ h0 ht]
  congr 1
  · exact Finset.sum_congr rfl fun k _ => mul_right_comm (a k) n (w1 k)
  · refine Finset.sum_congr rfl fun k _ => ?_
    rw [mul_right_comm (a k) n (b k), mul_right_comm (a k * b k) n (w2 k)]

/-- A finite sum of non-negative reals is a non-negative real. -/
theorem sum_real_nonneg {ι : Type*} (s : Finset ι) (f : ι → EReal)
    (hf : ∀ j ∈ s, ∃ r : ℝ, 0 ≤ r ∧ f j = (r : EReal)) : ∃ r : ℝ, 0 ≤ r ∧ ∑ j ∈ s, f j = (r : EReal) := by
  classical
  induction s using Finset.induction_on with
  | empty => exact ⟨0, le_refl _, by simp⟩
  | insert a s ha ih =>
    obtain ⟨r, hr, e⟩ := ih fun j hj => hf j (Finset.mem_insert_of_mem hj)
    obtain ⟨q, hq, eq⟩ := hf a (Finset.mem_insert_self a s)
    exact ⟨q + r, add_nonneg hq hr, by rw [Finset.sum_insert ha, e, eq, EReal.coe_add]⟩

/-- The larger of 1 and a non-negative real count is a real ≥ 1. -/
theorem max_one_real {x : EReal} (hx : ∃ r : ℝ, 0 ≤ r ∧ x = (r : EReal)) :
    ∃ d : ℝ, 1 ≤ d ∧ max (1 : EReal) x = (d : EReal) := by
  obtain ⟨r, _, rfl⟩ := hx
  rcases le_total (1 : ℝ) r with h | h
  · exact ⟨r, h, max_eq_right (by exact_mod_cast h)⟩
  · exact ⟨1, le_refl _, by rw [max_eq_left (by exact_mod_cast h)]; norm_cast⟩

/-- rsqrt of a product of two reals ≥ 1 lies in [0, ⊤). -/
theorem rsqrt_mul_bounds {x y : EReal} (hx : ∃ d : ℝ, 1 ≤ d ∧ x = (d : EReal)) (hy : ∃ d : ℝ, 1 ≤ d ∧ y = (d : EReal)) :
    0 ≤ Ideal.rsqrt (x * y) ∧ Ideal.rsqrt (x * y) ≠ ⊤ := by
  obtain ⟨d, hd, rfl⟩ := hx
  obtain ⟨e, he, rfl⟩ := hy
  have hpos : 0 < d * e := mul_pos (by linarith) (by linarith)
  rw [← EReal.coe_mul, Ideal.rsqrt_coe, if_neg (not_lt.mpr hpos.le), if_neg hpos.ne']
  exact ⟨EReal.coe_nonneg.mpr (inv_nonneg.mpr (Real.sqrt_nonneg _)), EReal.coe_ne_top _⟩

end Cert.ScaleAcrossSum

end
-- ==== Proof.NormBound.lean ====
/-
  The edge normalisation lies in [0, ⊤).

  The out-degree of a node is the number of edges leaving it: a scatter-add of ones onto zeros, which on the extended
  reals is 0 plus a finite sum of ones, a non-negative real.  Clipped from below at 1 it is a real ≥ 1, and so is the
  clipped in-degree.  Gathered at the two ends of an edge and multiplied they give a real ≥ 1, whose rsqrt is a
  positive real ≤ 1; the factor every edge's message is scaled by therefore lies in [0, ⊤), and it is the same
  for all 64 entries of the edge's row.
-/
import proofs.«105518_j14302241096099_1_alg».proof.Proof.Gen.ReferenceIdeal.Read
import proofs.«105518_j14302241096099_1_alg».proof.Proof.LibScaleAcrossSum
import Idealize.ShloMosaic.Lib.IdealHost
import Idealize.ShloMosaic.Lib.ValueIdx
import Idealize.ShloMosaic.PureOps.Ideal.Laws

set_option maxRecDepth 16384

noncomputable section

namespace Cert.ReferenceIdeal.NormBound

open Cert.ReferenceIdeal Cert.ReferenceIdeal.Read Idealize.ShloMosaic Idealize.ShloMosaic.ValueIdx Cert.ScaleAcrossSum

/-- A scatter-add of the all-ones updates onto the all-zeros operand is a non-negative real at every index. -/
theorem count_real {s si su : Shape} (D : ScatterDims s si su) {w : Nat} (z : FVec Ideal s .f32) (idx : IVec si w)
    (u : FVec Ideal su .f32) (hz : ∀ j, z j = 0) (hu : ∀ j, u j = 1) (j : s.Idx) :
    ∃ r : ℝ, 0 ≤ r ∧ Host.scatterAdd D z idx u j = (r : EReal) := by
  show ∃ r : ℝ, 0 ≤ r ∧ Ideal.hostScatterAdd D z idx u j = (r : EReal)
  unfold Ideal.hostScatterAdd
  obtain ⟨r, hr, e⟩ := sum_real_nonneg (Finset.univ.filter fun j' => D.resultIdx? j' idx = some j) u
    (fun j' _ => ⟨1, zero_le_one, by rw [hu j']; norm_cast⟩)
  exact ⟨r, hr, by rw [hz j, zero_add]; exact e⟩

theorem ones_apply (j : S1600000.Idx) : val_main_v0 (F := Ideal) j = 1 := by
  rw [val_main_v0_apply, val_main_cst_apply]; exact Ideal.ofBits_one_f32

/-- The clipped out-degree is a real ≥ 1. -/
theorem outDegree_real (x1 : IVec S1600000 32) (j : S100000.Idx) :
    ∃ d : ℝ, 1 ≤ d ∧ val_main_v4 (F := Ideal) x1 j = (d : EReal) := by
  rw [val_main_v4_apply, val_main_call0_v1_apply, val_main_call0_v0_apply, val_main_cst_1_apply]
  show ∃ d : ℝ, 1 ≤ d ∧ max (Ideal.ofBits .f32 0x3F800000#32) (val_main_v3 (F := Ideal) x1 j) = (d : EReal)
  rw [Ideal.ofBits_one_f32]
  refine max_one_real ?_
  unfold val_main_v3
  exact count_real _ _ _ _ (fun j => by rw [val_main_v1_apply, val_main_cst_0_apply]; exact Ideal.ofBits_zero_f32) ones_apply j

/-- The clipped in-degree is a real ≥ 1. -/
theorem inDegree_real (x2 : IVec S1600000 32) (j : S100000.Idx) :
    ∃ d : ℝ, 1 ≤ d ∧ val_main_v8 (F := Ideal) x2 j = (d : EReal) := by
  rw [val_main_v8_apply, val_main_call1_v1_apply, val_main_call1_v0_apply, val_main_cst_3_apply]
  show ∃ d : ℝ, 1 ≤ d ∧ max (Ideal.ofBits .f32 0x3F800000#32) (val_main_v7 (F := Ideal) x2 j) = (d : EReal)
  rw [Ideal.ofBits_one_f32]
  refine max_one_real ?_
  unfold val_main_v7
  exact count_real _ _ _ _ (fun j => by rw [val_main_v5_apply, val_main_cst_2_apply]; exact Ideal.ofBits_zero_f32) ones_apply j

/-- The normalisation of every edge lies in [0, ⊤). -/
theorem norm_bounds (x1 x2 : IVec S1600000 32) (e : S1600000.Idx) :
    0 ≤ val_main_v24 (F := Ideal) x1 x2 e ∧ val_main_v24 (F := Ideal) x1 x2 e ≠ ⊤ := by
  have h1 : ∃ d : ℝ, 1 ≤ d ∧ val_main_v15 (F := Ideal) x1 e = (d : EReal) := outDegree_real x1 _
  have h2 : ∃ d : ℝ, 1 ≤ d ∧ val_main_v22 (F := Ideal) x2 e = (d : EReal) := inDegree_real x2 _
  rw [val_main_v24_apply, val_main_v23_apply, Ideal.hostUnary_rsqrt_def, Ideal.mulf_def]
  exact rsqrt_mul_bounds h1 h2

/-- The broadcast normalisation is constant along an edge's row. -/
theorem norm_row (x1 x2 : IVec S1600000 32) (p : Fin 1600000) (k : Fin 64) :
    val_main_v44 (F := Ideal) x1 x2 (ix2 p k) = val_main_v24 (F := Ideal) x1 x2 (ix1 p) := by
  rw [val_main_v44_apply, val_main_v43_apply]
  refine congrArg _ (funext fun a => ?_)
  match a with
  | ⟨0, _⟩ => rfl

end Cert.ReferenceIdeal.NormBound

end
-- ==== Proof.LayerLaws.lean ====
/-
  One graph-convolution layer, written two ways, is one function.

  The reference forms an edge's message as (a·w₁ + (a ∘ b)·w₂)·n, with a, b the rows of the node features at the
  edge's source and destination and n the edge's normalisation; the kernel scales the source row first and forms
  (a·n)·w₁ + ((a·n) ∘ b)·w₂.  Entry (e, c) of either is a sum over the 64 columns of row e, and n is the same for all
  of them and lies in [0, ⊤), so the two agree on the extended reals whatever the entries of a, b, w₁, w₂ are.
  The host's contractions are these row-by-matrix sums, and the node update x·w + agg (with the maximum with 0 in the
  hidden layer) is the same expression on both sides.
-/
import proofs.«105518_j14302241096099_1_alg».proof.Proof.Gen.ReferenceIdeal.Read
import proofs.«105518_j14302241096099_1_alg».proof.Proof.Spec
import proofs.«105518_j14302241096099_1_alg».proof.Proof.LibScaleAcrossSum
import proofs.«105518_j14302241096099_1_alg».proof.Proof.NormBound
import Idealize.ShloMosaic.Lib.ValueIdx
import Idealize.ShloMosaic.PureOps.Ideal.Laws

set_option maxRecDepth 16384

noncomputable section

namespace Cert.ReferenceIdeal.LayerLaws

open Cert.ReferenceIdeal Cert.ReferenceIdeal.Read Idealize.ShloMosaic Idealize.ShloMosaic.ValueIdx Cert.Ngcf Cert.ScaleAcrossSum

/-- The host's contraction of an [E, 64] array of rows with a 64 × 64 matrix is the row-by-matrix product. -/
theorem edgeDot_eq (a : FVec Ideal S1600000x64 .f32) (w : FVec Ideal S64x64 .f32) :
    Host.dotGeneral dot_S1600000x64_S64x64_S1600000x64_1_0_0_1_n_n none a w = rowsTimes (R := 1600000) a w := by
  funext i
  simp only [Host.dotGeneral]
  rw [Ideal.dotGeneral_apply, ← Equiv.sum_comp (ValueIdx.contrEquiv1 dot_S1600000x64_S64x64_S1600000x64_1_0_0_1_n_n 64 rfl rfl).symm]
  unfold rowsTimes
  refine Finset.sum_congr rfl fun k _ => ?_
  have hk := ValueIdx.contrEquiv1_symm_val dot_S1600000x64_S64x64_S1600000x64_1_0_0_1_n_n 64 rfl rfl k
  have el : dot_S1600000x64_S64x64_S1600000x64_1_0_0_1_n_n.lhsIdx i ((ValueIdx.contrEquiv1 dot_S1600000x64_S64x64_S1600000x64_1_0_0_1_n_n 64 rfl rfl).symm k)
      = ix2 (⟨(i 0).val, idx2_lt0 i⟩ : Fin 1600000) k := funext fun a => Fin.ext (by
    match a with
    | ⟨0, _⟩ => exact lhs_main_v39_0 _ _
    | ⟨1, _⟩ => exact (lhs_main_v39_1 _ _).trans hk)
  have er : dot_S1600000x64_S64x64_S1600000x64_1_0_0_1_n_n.rhsIdx i ((ValueIdx.contrEquiv1 dot_S1600000x64_S64x64_S1600000x64_1_0_0_1_n_n 64 rfl rfl).symm k)
      = ix2 k (⟨(i 1).val, idx2_lt1 i⟩ : Fin 64) := funext fun a => Fin.ext (by
    match a with
    | ⟨0, _⟩ => exact (rhs_main_v39_0 _ _).trans hk
    | ⟨1, _⟩ => exact rhs_main_v39_1 _ _)
  rw [el, er]

/-- The host's contraction of the [N, 64] node features with a 64 × 64 matrix is the row-by-matrix product. -/
theorem nodeDot_eq (a : FVec Ideal S100000x64 .f32) (w : FVec Ideal S64x64 .f32) :
    Host.dotGeneral dot_S100000x64_S64x64_S100000x64_1_0_0_1_n_n none a w = rowsTimes (R := 100000) a w := by
  funext i
  simp only [Host.dotGeneral]
  rw [Ideal.dotGeneral_apply, ← Equiv.sum_comp (ValueIdx.contrEquiv1 dot_S100000x64_S64x64_S100000x64_1_0_0_1_n_n 64 rfl rfl).symm]
  unfold rowsTimes
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k)
      = ix2 (⟨(i 0).val, idx2_lt0 i⟩ : Fin 100000) k := funext fun a => Fin.ext (by
    match a with
    | ⟨0, _⟩ => exact lhs_main_v49_0 _ _
    | ⟨1, _⟩ => exact (lhs_main_v49_1 _ _).trans hk)
  have er : dot_S100000x64_S64x64_S100000x64_1_0_0_1_n_n.rhsIdx i ((ValueIdx.contrEquiv1 dot_S100000x64_S64x64_S100000x64_1_0_0_1_n_n 64 rfl rfl).symm k)
      = ix2 k (⟨(i 1).val, idx2_lt1 i⟩ : Fin 64) := funext fun a => Fin.ext (by
    match a with
    | ⟨0, _⟩ => exact (rhs_main_v49_0 _ _).trans hk
    | ⟨1, _⟩ => exact rhs_main_v49_1 _ _)
  rw [el, er]

/-- Scaling every source row by its edge's factor before the two contractions is scaling the message afterwards, for a
    factor that is constant along each row and lies in [0, ⊤). -/
theorem message_law (g g' nb : FVec Ideal S1600000x64 .f32) (w1 w2 : FVec Ideal S64x64 .f32) (nrm : FVec Ideal S1600000 .f32)
    (hrow : ∀ (p : Fin 1600000) (k : Fin 64), nb (ix2 p k) = nrm (ix1 p)) (hb : ∀ e, 0 ≤ nrm e ∧ nrm e ≠ ⊤) :
    edgeMessage (R := 1600000) (mulf g nb : FVec Ideal S1600000x64 .f32) g' w1 w2
      = mulf (addf (Host.dotGeneral dot_S1600000x64_S64x64_S1600000x64_1_0_0_1_n_n none g w1) (Host.dotGeneral dot_S1600000x64_S64x64_S1600000x64_1_0_0_1_n_n none (mulf g g') w2)) nb := by
  rw [edgeDot_eq, edgeDot_eq]
  funext i
  obtain ⟨p, q, rfl⟩ : ∃ (p : Fin 1600000) (q : Fin 64), i = ix2 p q := ⟨i 0, i 1, eq_ix2 i⟩
  show rowsTimes (R := 1600000) (mulf g nb : FVec Ideal S1600000x64 .f32) w1 (ix2 p q) + rowsTimes (R := 1600000) (fun j => (mulf g nb : FVec Ideal S1600000x64 .f32) j * g' j) w2 (ix2 p q)
      = (rowsTimes (R := 1600000) g w1 (ix2 p q) + rowsTimes (R := 1600000) (mulf g g' : FVec Ideal S1600000x64 .f32) w2 (ix2 p q)) * nb (ix2 p q)
  simp only [rowsTimes_ix2, mulf_apply, hrow]
  exact scaled_message (fun k => g (ix2 p k)) (fun k => g' (ix2 p k)) (fun k => w1 (ix2 k q)) (fun k => w2 (ix2 k q))
    (hb (ix1 p)).1 (hb (ix1 p)).2

/-- The first layer's messages: the kernel's form is the reference's. -/
theorem message1_eq (x0 : FVec Ideal S100000x64 .f32) (x1 x2 : IVec S1600000 32) (x3 x4 : FVec Ideal S64x64 .f32) :
    edgeMessage (R := 1600000) (mulf (val_main_v31 (F := Ideal) x0 x1) (val_main_v44 (F := Ideal) x1 x2) : FVec Ideal S1600000x64 .f32) (val_main_v38 (F := Ideal) x0 x2) x3 x4
      = val_main_v45 (F := Ideal) x0 x1 x2 x3 x4 :=
  (message_law _ _ _ x3 x4 (val_main_v24 (F := Ideal) x1 x2) (NormBound.norm_row x1 x2) (NormBound.norm_bounds x1 x2)).trans rfl

/-- The second layer's messages, from any hidden layer h: the kernel's form is the reference's. -/
theorem message2_eq (h : FVec Ideal S100000x64 .f32) (x1 x2 : IVec S1600000 32) (x5 x6 : FVec Ideal S64x64 .f32) :
    edgeMessage (R := 1600000) (mulf (Host.gather gather_S100000x64_S1600000x1_S1600000x64_1_0_n_n_0_1_164 h (val_main_v82 (F := Ideal) x1)) (val_main_v96 (F := Ideal) x1 x2) : FVec Ideal S1600000x64 .f32)
        (Host.gather gather_S100000x64_S1600000x1_S1600000x64_1_0_n_n_0_1_164 h (val_main_v89 (F := Ideal) x2)) x5 x6
      = mulf (addf (Host.dotGeneral dot_S1600000x64_S64x64_S1600000x64_1_0_0_1_n_n none (Host.gather gather_S100000x64_S1600000x1_S1600000x64_1_0_n_n_0_1_164 h (val_main_v82 (F := Ideal) x1)) x5)
          (Host.dotGeneral dot_S1600000x64_S64x64_S1600000x64_1_0_0_1_n_n none (mulf (Host.gather gather_S100000x64_S1600000x1_S1600000x64_1_0_n_n_0_1_164 h (val_main_v82 (F := Ideal) x1)) (Host.gather gather_S100000x64_S1600000x1_S1600000x64_1_0_n_n_0_1_164 h (val_main_v89 (F := Ideal) x2))) x6))
          (val_main_v96 (F := Ideal) x1 x2) :=
  message_law _ _ _ x5 x6 (val_main_v24 (F := Ideal) x1 x2) (NormBound.norm_row x1 x2) (NormBound.norm_bounds x1 x2)

/-- The hidden layer's node update is the reference's: a contraction, a sum, the maximum with 0. -/
theorem hidden_eq (x agg : FVec Ideal S100000x64 .f32) (w : FVec Ideal S64x64 .f32) :
    nodeUpdateRelu (R := 100000) x agg w
      = maximumf (addf (Host.dotGeneral dot_S100000x64_S64x64_S100000x64_1_0_0_1_n_n none x w) agg) (val_main_call2_v0 (F := Ideal)) := by
  rw [nodeDot_eq]
  funext i
  rw [maximumf_apply, addf_apply, val_main_call2_v0_apply, val_main_call2_cst_apply]
  show max (rowsTimes (R := 100000) x w i + agg i) 0 = max (rowsTimes (R := 100000) x w i + agg i) (Ideal.ofBits .f32 0x00000000#32)
  rw [Ideal.ofBits_zero_f32]

/-- The output layer's node update is the reference's: a contraction and a sum. -/
theorem output_eq (x agg : FVec Ideal S100000x64 .f32) (w : FVec Ideal S64x64 .f32) :
    nodeUpdate (R := 100000) x agg w = addf (Host.dotGeneral dot_S100000x64_S64x64_S100000x64_1_0_0_1_n_n none x w) agg := by
  rw [nodeDot_eq]
  rfl

end Cert.ReferenceIdeal.LayerLaws

end
-- ==== Proof.KernelValue.lean ====
/-
  The value the idealized kernel returns, as the reference's own function of the argument arrays.

  Segment by segment: region 0 leaves the first layer's messages, which by the scaling law are the reference's
  messages; their scatter-add by destination is the reference's aggregate; region 1 leaves the hidden layer
  max (x·W + agg) 0, the reference's; the second layer repeats the first from the hidden layer, and region 3 leaves
  h·W' + agg', the reference's result.  Each step rewrites the buffers a region reads by what the previous steps
  proved they hold, and closes with the law of that step.
-/
import proofs.«105518_j14302241096099_1_alg».proof.Proof.KernelStages
import proofs.«105518_j14302241096099_1_alg».proof.Proof.EdgeRegion
import proofs.«105518_j14302241096099_1_alg».proof.Proof.NodeRegion
import proofs.«105518_j14302241096099_1_alg».proof.Proof.LayerLaws

set_option maxRecDepth 16384

noncomputable section

namespace Cert.KernelIdeal.ResultValue

open Cert.KernelIdeal Cert.KernelIdeal.Gen
open Idealize.ShloMosaic Idealize.ShloMosaic.TcCoe Idealize.SL.Sem Cert.Ngcf

/-! ## The reference's later stages, one operation opened (any float instance) -/

section Stages
variable {F : FTy → Type} [FloatOps F]
variable (x0 : (⟨Cert.ReferenceIdeal.S100000x64, .f32⟩ : BufTy).Contents (Elt F)) (x1 x2 : (⟨Cert.ReferenceIdeal.S1600000, .i32⟩ : BufTy).Contents (Elt F)) (x3 x4 x5 x6 : (⟨Cert.ReferenceIdeal.S64x64, .f32⟩ : BufTy).Contents (Elt F))

theorem aggregate1_stage : Cert.ReferenceIdeal.Read.val_main_v48 (F := F) x0 x1 x2 x3 x4
    = Host.scatterAdd Cert.ReferenceIdeal.scatter_S100000x64_S1600000x1_S1600000x64_1_0_0_1 (Cert.ReferenceIdeal.Read.val_main_v46 (F := F)) (Cert.ReferenceIdeal.Read.val_main_v47 (F := F) x2) (Cert.ReferenceIdeal.Read.val_main_v45 (F := F) x0 x1 x2 x3 x4) := rfl

theorem hidden_stage : Cert.ReferenceIdeal.Read.val_main_v51 (F := F) x0 x1 x2 x3 x4
    = maximumf (addf (Host.dotGeneral Cert.ReferenceIdeal.dot_S100000x64_S64x64_S100000x64_1_0_0_1_n_n none x0 x3) (Cert.ReferenceIdeal.Read.val_main_v48 (F := F) x0 x1 x2 x3 x4)) (Cert.ReferenceIdeal.Read.val_main_call2_v0 (F := F)) := rfl

theorem message2_stage : Cert.ReferenceIdeal.Read.val_main_v97 (F := F) x0 x1 x2 x3 x4 x5 x6
    = mulf (addf (Host.dotGeneral Cert.ReferenceIdeal.dot_S1600000x64_S64x64_S1600000x64_1_0_0_1_n_n none (Host.gather Cert.ReferenceIdeal.gather_S100000x64_S1600000x1_S1600000x64_1_0_n_n_0_1_164 (Cert.ReferenceIdeal.Read.val_main_v51 (F := F) x0 x1 x2 x3 x4) (Cert.ReferenceIdeal.Read.val_main_v82 (F := F) x1)) x5)
        (Host.dotGeneral Cert.ReferenceIdeal.dot_S1600000x64_S64x64_S1600000x64_1_0_0_1_n_n none (mulf (Host.gather Cert.ReferenceIdeal.gather_S100000x64_S1600000x1_S1600000x64_1_0_n_n_0_1_164 (Cert.ReferenceIdeal.Read.val_main_v51 (F := F) x0 x1 x2 x3 x4) (Cert.ReferenceIdeal.Read.val_main_v82 (F := F) x1))
          (Host.gather Cert.ReferenceIdeal.gather_S100000x64_S1600000x1_S1600000x64_1_0_n_n_0_1_164 (Cert.ReferenceIdeal.Read.val_main_v51 (F := F) x0 x1 x2 x3 x4) (Cert.ReferenceIdeal.Read.val_main_v89 (F := F) x2))) x6))
        (Cert.ReferenceIdeal.Read.val_main_v96 (F := F) x1 x2) := rfl

theorem aggregate2_stage : Cert.ReferenceIdeal.Read.val_main_v100 (F := F) x0 x1 x2 x3 x4 x5 x6
    = Host.scatterAdd Cert.ReferenceIdeal.scatter_S100000x64_S1600000x1_S1600000x64_1_0_0_1 (Cert.ReferenceIdeal.Read.val_main_v98 (F := F)) (Cert.ReferenceIdeal.Read.val_main_v99 (F := F) x2) (Cert.ReferenceIdeal.Read.val_main_v97 (F := F) x0 x1 x2 x3 x4 x5 x6) := rfl

theorem result_stage : Cert.ReferenceIdeal.Read.val_main_v102 (F := F) x0 x1 x2 x3 x4 x5 x6
    = addf (Host.dotGeneral Cert.ReferenceIdeal.dot_S100000x64_S64x64_S100000x64_1_0_0_1_n_n none (Cert.ReferenceIdeal.Read.val_main_v51 (F := F) x0 x1 x2 x3 x4) x5) (Cert.ReferenceIdeal.Read.val_main_v100 (F := F) x0 x1 x2 x3 x4 x5 x6) := rfl

end Stages

/-! ## The kernel's buffers, boundary by boundary, at the ideal instance -/

variable (m : (ℓ : Loc nD τ sig) → Buf (Elt Ideal) ℓ) (ρ : Dev nD → PrngReg)

/-- Region 0 leaves the reference's first-layer messages. -/
theorem messages1 (c : Dev nD) : W6 m ρ c (Proc.devRef .tc main_v42) = Cert.ReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  calc W6 m ρ c (Proc.devRef .tc main_v42)
      = (dat0 (V5 m ρ) c).arrAt 4 cfg0.N := W6_arr m ρ c 4
    _ = edgeMessage (R := 1600000) (W5 m ρ c (Proc.devRef .tc main_v41)) (W5 m ρ c (Proc.devRef .tc main_v38))
          (W5 m ρ c (Proc.devRef .tc main_arg3)) (W5 m ρ c (Proc.devRef .tc main_arg4)) := EdgeRegion.edge0_array (V5 m ρ) c
    _ = edgeMessage (R := 1600000) (mulf (Cert.ReferenceIdeal.Read.val_main_v31 (F := Ideal) (m ((c : Thread nD τ).loc main_arg0)) (m ((c : Thread nD τ).loc main_arg1))) (Cert.ReferenceIdeal.Read.val_main_v44 (F := Ideal) (m ((c : Thread nD τ).loc main_arg1)) (m ((c : Thread nD τ).loc main_arg2))) : FVec Ideal Cert.ReferenceIdeal.S1600000x64 .f32)
          (Cert.ReferenceIdeal.Read.val_main_v38 (F := Ideal) (m ((c : Thread nD τ).loc main_arg0)) (m ((c : Thread nD τ).loc main_arg2))) (m ((c : Thread nD τ).loc main_arg3)) (m ((c : Thread nD τ).loc main_arg4)) := by
        rw [Stages.scaledSrcRows_at5 m ρ c, Stages.dstRows_at5 m ρ c, Stages.arg3_at5 m ρ c, Stages.arg4_at5 m ρ c]
    _ = _ := Cert.ReferenceIdeal.LayerLaws.message1_eq _ _ _ _ _

/-- Their scatter-add by destination is the reference's first aggregate. -/
theorem aggregate1 (c : Dev nD) : W7 m ρ c (Proc.devRef .tc main_v45) = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [Stages.aggregate_at7 m ρ c, messages1 m ρ c]
  exact (aggregate1_stage _ _ _ _ _).symm

/-- Region 1 leaves the reference's hidden layer. -/
theorem hidden (c : Dev nD) : W8 m ρ c (Proc.devRef .tc main_v46) = Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  calc W8 m ρ c (Proc.devRef .tc main_v46)
      = (dat1 (V7 m ρ) c).arrAt 3 cfg1.N := W8_arr m ρ c 3
    _ = nodeUpdateRelu (R := 100000) (W7 m ρ c (Proc.devRef .tc main_arg0)) (W7 m ρ c (Proc.devRef .tc main_v45))
          (W7 m ρ c (Proc.devRef .tc main_arg3)) := NodeRegion.node1_array (V7 m ρ) c
    _ = nodeUpdateRelu (R := 100000) (m ((c : Thread nD τ).loc main_arg0)) (Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg3)) := by
        rw [Stages.arg0_at7 m ρ c, aggregate1 m ρ c, Stages.arg3_at7 m ρ c]
    _ = _ := (Cert.ReferenceIdeal.LayerLaws.hidden_eq _ _ _).trans (hidden_stage _ _ _ _ _).symm

/-- Region 2 leaves the reference's second-layer messages. -/
theorem messages2 (c : Dev nD) : W14 m ρ c (Proc.devRef .tc main_v89) = Cert.ReferenceIdeal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  calc W14 m ρ c (Proc.devRef .tc main_v89)
      = (dat2 (V13 m ρ) c).arrAt 4 cfg2.N := W14_arr m ρ c 4
    _ = edgeMessage (R := 1600000) (W13 m ρ c (Proc.devRef .tc main_v88)) (W13 m ρ c (Proc.devRef .tc main_v85))
          (W13 m ρ c (Proc.devRef .tc main_arg5)) (W13 m ρ c (Proc.devRef .tc main_arg6)) := EdgeRegion.edge2_array (V13 m ρ) c
    _ = edgeMessage (R := 1600000) (mulf (Host.gather Cert.ReferenceIdeal.gather_S100000x64_S1600000x1_S1600000x64_1_0_n_n_0_1_164 (Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (Cert.ReferenceIdeal.Read.val_main_v82 (F := Ideal) (m ((c : Thread nD τ).loc main_arg1)))) (Cert.ReferenceIdeal.Read.val_main_v96 (F := Ideal) (m ((c : Thread nD τ).loc main_arg1)) (m ((c : Thread nD τ).loc main_arg2))) : FVec Ideal Cert.ReferenceIdeal.S1600000x64 .f32)
          (Host.gather Cert.ReferenceIdeal.gather_S100000x64_S1600000x1_S1600000x64_1_0_n_n_0_1_164 (Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (Cert.ReferenceIdeal.Read.val_main_v89 (F := Ideal) (m ((c : Thread nD τ).loc main_arg2)))) (m ((c : Thread nD τ).loc main_arg5)) (m ((c : Thread nD τ).loc main_arg6)) := by
        rw [Stages.scaledSrcRows_at13 m ρ c, Stages.dstRows_at13 m ρ c, Stages.arg5_at13 m ρ c, Stages.arg6_at13 m ρ c, hidden m ρ c]
    _ = _ := (Cert.ReferenceIdeal.LayerLaws.message2_eq _ _ _ _ _).trans (message2_stage _ _ _ _ _ _ _).symm

/-- Their scatter-add by destination is the reference's second aggregate. -/
theorem aggregate2 (c : Dev nD) : W15 m ρ c (Proc.devRef .tc main_v92) = Cert.ReferenceIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [Stages.aggregate_at15 m ρ c, messages2 m ρ c]
  exact (aggregate2_stage _ _ _ _ _ _ _).symm

/-- Region 3 leaves the reference's result. -/
theorem result (c : Dev nD) : W16 m ρ c (Proc.devRef .tc main_v93) = Cert.ReferenceIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  calc W16 m ρ c (Proc.devRef .tc main_v93)
      = (dat3 (V15 m ρ) c).arrAt 3 cfg3.N := W16_arr m ρ c 3
    _ = nodeUpdate (R := 100000) (W15 m ρ c (Proc.devRef .tc main_v46)) (W15 m ρ c (Proc.devRef .tc main_v92))
          (W15 m ρ c (Proc.devRef .tc main_arg5)) := NodeRegion.node3_array (V15 m ρ) c
    _ = nodeUpdate (R := 100000) (Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (Cert.ReferenceIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg5)) := by
        rw [Stages.hidden_at15 m ρ c, hidden m ρ c, aggregate2 m ρ c, Stages.arg5_at15 m ρ c]
    _ = _ := (Cert.ReferenceIdeal.LayerLaws.output_eq _ _ _).trans (result_stage _ _ _ _ _ _ _).symm

end Cert.KernelIdeal.ResultValue

end
-- ==== Proof.lean ====
/-
  A two-layer graph convolution over a fixed edge list: the tiled kernel against its plain reference, on the extended reals.

  A layer sends along every edge e = (j → i) the message n_e · (x_j·W₁ + (x_j ∘ x_i)·W₂), with n_e = rsqrt (deg_out(j)·deg_in(i))
  from degrees counted off the edge list and clipped below at 1, sums the messages by destination, and adds x·W₁; the
  hidden layer takes the maximum with 0.  The reference multiplies a finished message by n_e; the kernel scales the
  gathered source row by n_e first and forms the two matrix products from the scaled row, tile by tile, on the matrix
  unit (a change of float format is the identity here, a matrix product into a zero accumulator is the plain sum).
  The two agree entry by entry because n_e lies in [0, ⊤) and is the same for the 64 entries of a row, so it distributes
  over both contractions on the extended reals, infinite entries included: the precondition is never opened.  Degrees,
  gathers and scatter-adds are the same host operations in both programs and stay unopened.

  The kernel's three other steps — the scatter-adds and the node updates — are the reference's operations of equal
  operands.  The frames of the two kernel programs are the generated ones; the reference's frame is its generated run
  with the result dropped; the idealization rewrote no operation, so it preserves the kernel trivially.
-/
import proofs.«105518_j14302241096099_1_alg».proof.Defs
import proofs.«105518_j14302241096099_1_alg».proof.Proof.Gen.Kernel
import proofs.«105518_j14302241096099_1_alg».proof.Proof.Gen.Kernel.Frame
import proofs.«105518_j14302241096099_1_alg».proof.Proof.Gen.KernelIdeal
import proofs.«105518_j14302241096099_1_alg».proof.Proof.Gen.KernelIdeal.Frame
import proofs.«105518_j14302241096099_1_alg».proof.Proof.Gen.ReferenceIdeal
import proofs.«105518_j14302241096099_1_alg».proof.Proof.Gen.Pre_finite_inputs
import proofs.«105518_j14302241096099_1_alg».proof.Proof.Gen.ReferenceIdeal.Read
import proofs.«105518_j14302241096099_1_alg».proof.Proof.KernelRun
import proofs.«105518_j14302241096099_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the reference's function of the argument arrays: the kernel by its run read boundary by
    boundary, the reference by its generated run, and the arguments agree. -/
theorem algebraic : Cert.algebraic_KernelIdeal_ReferenceIdeal := by
  intro m ρ m' ρ' _ hagree
  refine ⟨fun c => Cert.ReferenceIdeal.Read.val_main_v102 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.ResultValue.result m ρ c), (h c).2⟩)
      (Cert.KernelIdeal.ResultRun.run_result (F := Ideal) m ρ)
  · refine (θ_run Cert.ReferenceIdeal.defs _ _).mono (fun _ h c => ⟨?_, (h c).2⟩)
      (Cert.ReferenceIdeal.Value.run (F := Ideal) m' ρ')
    obtain ⟨e0, e1, e2, e3, e4, e5, e6⟩ := hagree c
    rw [(h c).1, Cert.ReferenceIdeal.Read.val_main_v102_eq, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
